-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v58_1)) (v1 : (c : Dev Cert.KernelIdeal.nD) → Buf (Elt Ideal) ((c.tc : Thread Cert.KernelIdeal.nD Cert.KernelIdeal.τ).loc Cert.KernelIdeal.main_v58_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_1) = v0 c
          ∧ r.2.mem ((c.tc : Thread Cert.KernelIdeal.nD Cert.KernelIdeal.τ).loc Cert.KernelIdeal.main_v58_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S64x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S64x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S1x1 : Shape := ⟨2, ![1, 1]⟩

abbrev nBuf : Space → Nat
  | .hbm => 86
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .bf16⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000x128, .bf16⟩
  | .hbm, ⟨45, _⟩ => ⟨S850000x128, .f32⟩
  | .hbm, ⟨46, _⟩ => ⟨S_, .f32⟩
  | .hbm, ⟨47, _⟩ => ⟨S50000x128, .f32⟩
  | .hbm, ⟨48, _⟩ => ⟨S850000x1, .i32⟩
  | .hbm, ⟨49, _⟩ => ⟨S50000x128, .f32⟩
  | .hbm, ⟨50, _⟩ => ⟨S1x128, .f32⟩
  | .hbm, ⟨51, _⟩ => ⟨S50000x128, .bf16⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .bf16⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x64, .bf16⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x64, .bf16⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S1x1, .f32⟩
  | .hbm, ⟨84, _⟩ => ⟨S50000x64, .f32⟩
  | .hbm, ⟨85, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x64, .f32⟩
  | .local _ .vmem, ⟨21, _⟩ => ⟨S5000x64, .bf16⟩
  | .local _ .vmem, ⟨22, _⟩ => ⟨S5000x64, .bf16⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S1x64, .f32⟩
  | .local _ .vmem, ⟨28, _⟩ => ⟨S64x1, .f32⟩
  | .local _ .vmem, ⟨29, _⟩ => ⟨S1x1, .f32⟩
  | .local _ .vmem, ⟨30, _⟩ => ⟨S5000x64, .f32⟩
  | .local _ .vmem, ⟨31, _⟩ => ⟨S5000x64, .f32⟩
  | .local _ .vmem, ⟨32, _⟩ => ⟨S5000x1, .f32⟩
  | .local _ .vmem, ⟨33, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_v46 : Ref sig .tc := ⟨.hbm, 70, rfl⟩
abbrev main_c_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58_0 : Ref sig .tc := ⟨.hbm, 84, rfl⟩
abbrev main_v58_1 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc3_stg6_0 : Ref sig .tc := ⟨.vmem, 32, rfl⟩
abbrev cc3_stg6_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc3_sem6_0 : DmaSem sig := 32
abbrev cc3_sem6_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  shapeCasts_S64_S1x64 : S64.ShapeCasts S1x64
  shapeCasts_S1_S1x1 : S1.ShapeCasts S1x1
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .bf16 = 32 ∨ (Rect.block (s := S50000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .bf16 = 32 ∨ (Rect.block (s := S50000x64) S5000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x1.size a ≤ S64x1.size a
  hwx3_3 : ∀ i : grid3.Coords, EltTy.bits .f32 = 32 ∨ (Rect.block (s := S64x1) S64x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x1.size a ≤ S50000x1.size a
  hwx3_6 : ∀ i : grid3.Coords, EltTy.bits .f32 = 32 ∨ (Rect.block (s := S50000x1) S5000x1.size (cc3_transform_6 i) (hinb3_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v55) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S64x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58_0) S5000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v58_1) S5000x1.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S50000x128, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x1, .f32⟩
  | .hbm, ⟨64, _⟩ => ⟨S850000x128, .f32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000x128, .f32⟩
  | .hbm, ⟨86, _⟩ => ⟨S850000x1, .f32⟩
  | .hbm, ⟨87, _⟩ => ⟨S850000x128, .f32⟩
  | .hbm, ⟨88, _⟩ => ⟨S850000x128, .f32⟩
  | .hbm, ⟨89, _⟩ => ⟨S_, .f32⟩
  | .hbm, ⟨90, _⟩ => ⟨S50000x128, .f32⟩
  | .hbm, ⟨91, _⟩ => ⟨S850000x1, .i32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S50000x128, .f32⟩
  | .hbm, ⟨98, _⟩ => ⟨S50000x128, .f32⟩
  | .hbm, ⟨99, _⟩ => ⟨S50000x64, .f32⟩
  | .hbm, ⟨100, _⟩ => ⟨S_, .i32⟩
  | .hbm, ⟨101, _⟩ => ⟨S850000, .i32⟩
  | .hbm, ⟨102, _⟩ => ⟨S850000, .i1⟩
  | .hbm, ⟨103, _⟩ => ⟨S_, .i32⟩
  | .hbm, ⟨104, _⟩ => ⟨S850000, .i32⟩
  | .hbm, ⟨105, _⟩ => ⟨S850000, .i32⟩
  | .hbm, ⟨106, _⟩ => ⟨S850000, .i32⟩
  | .hbm, ⟨107, _⟩ => ⟨S850000x1, .i32⟩
  | .hbm, ⟨108, _⟩ => ⟨S850000x64, .f32⟩
  | .hbm, ⟨109, _⟩ => ⟨S850000x1, .f32⟩
  | .hbm, ⟨110, _⟩ => ⟨S850000x64, .f32⟩
  | .hbm, ⟨111, _⟩ => ⟨S850000x64, .f32⟩
  | .hbm, ⟨112, _⟩ => ⟨S_, .f32⟩
  | .hbm, ⟨113, _⟩ => ⟨S50000x64, .f32⟩
  | .hbm, ⟨114, _⟩ => ⟨S850000x1, .i32⟩
  | .hbm, ⟨115, _⟩ => ⟨S50000x64, .f32⟩
  | .hbm, ⟨116, _⟩ => ⟨S1x64, .f32⟩
  | .hbm, ⟨117, _⟩ => ⟨S50000x64, .f32⟩
  | .hbm, ⟨118, _⟩ => ⟨S50000x64, .f32⟩
  | .hbm, ⟨119, _⟩ => ⟨S50000x1, .f32⟩
  | .hbm, ⟨120, _⟩ => ⟨S1x1, .f32⟩
  | .hbm, ⟨121, _⟩ => ⟨S50000x1, .f32⟩
  | .hbm, ⟨122, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_c_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_15 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x1_S50000x1_1_0_0_1_n_n_wf : DotDims.WF S50000x64 S64x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelRun.lean ====
/-
  The idealized kernel's run with its final memory NAMED.

  @main is ten segments — host stretches and four row-tiled matrix-product regions. Every weakly fair execution from a
  memory with zero counters terminates without a fault, and in every final state each unscoped buffer of each core
  holds the contents the segments compose to: the fold `W10` of the launch memory through the stretches' pure
  operations and the regions' write-backs. The frame statement keeps of this only the argument arrays; the value
  statement needs the two result arrays too, so the same run is stated here with the whole final memory in its
  conclusion.
-/
import proofs.«106710_j9405978378565_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN, every unscoped buffer named: each core's final memory is the composed contents `W10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.KernelIdeal.RunValue

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.RegionArrays.lean ====
/-
  The four TensorCore regions of the three-layer graph convolution, each read as ONE function of the arrays it finds.

  Every region walks the 50000 node rows in ten blocks of 5000 rows; at a grid point it holds one block of rows of the
  row-tiled arrays and the whole of the small ones (a weight matrix, a bias row, a single bias word). What it writes
  back for a row depends on that row alone:
    * region 0:  row r of  (A · W), scaled by the row's factor d r;
    * regions 1, 2:  row r of  (max (A ∘ d + b) 0 · W), scaled by d r  (the widths of W are 128 and 64);
    * region 3:  row r of  A ∘ d + b,  and that row times the one output column, plus the output bias.
  Here A ∘ d scales row r of A by d r, and b is added to every row. On the extended reals the narrowing and widening
  of a number's format change nothing and the product's accumulator starts from zero, so each block is the restriction
  to its rows of one function of the whole arrays; the ten blocks cover the rows, so the array after the region is that
  function.
-/
import proofs.«106710_j9405978378565_2_alg».proof.Proof.Gen.KernelIdeal.Frame
import proofs.«106710_j9405978378565_2_alg».proof.Proof.LibKeepdims
import proofs.«106710_j9405978378565_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

-- the buffer contents of the TensorCore when a region is entered: every statement below holds for any such contents
variable (V : (c : Dev nD) → (b : Ref sig .tc) → Buf (Elt Ideal) ((c : Thread nD τ).loc b))

theorem zero_offsets : (![0, 0] : Fin 2 → Nat) = fun _ => 0 := funext fun a => by fin_cases a <;> rfl

/-! ## Region 0: the product of the node rows with the first weight matrix, each row scaled by its factor -/

/-- Row `r`, column `f` of `A · W`, times the factor of row `r`. -/
def scaledProduct0 (A : S50000x128.Idx → EReal) (W : S128x128.Idx → EReal) (d : S50000x1.Idx → EReal) :
    S50000x128.Idx → EReal :=
  fun i => (∑ k : Fin 128, A (ix2 (i 0) k) * W (ix2 k (i 1))) * d (ix2 (i 0) (0 : Fin 1))

/-- What the body computes from a block of 5000 rows, the weights and the rows' factors, entry by entry: the format
    changes are identities, the product starts from the zero accumulator, and the column of factors is repeated along
    the row. -/
theorem pay0_apply (x0 : FVec Ideal S5000x128 .f32) (x1 : FVec Ideal S128x128 .f32) (x2 : FVec Ideal S5000x1 .f32)
    (p : Fin 5000) (q : Fin 128) :
    k0_pay1 (F := Ideal) x0 x1 x2 (ix2 p q)
      = (∑ k : Fin 128, x0 (ix2 p k) * x1 (ix2 k q)) * x2 (ix2 p (0 : Fin 1)) := by
  unfold k0_pay1
  refine (congrArg₂ (· * ·)
    (PlainDot.matmul_zero_apply dot_S5000x128_S128x128_S5000x128_1_0_0_1_n_n rfl none _ _ (ix2 p q))
    ((broadcastTo_a1_ab_apply _ broadcasts_S5000x1_S5000x128 p q).trans
      (congrFun (shapeCast_self x2 shapeCasts_S5000x1_S5000x1) (ix2 p (0 : Fin 1))))).trans ?_
  rfl

/-- The index maps of region 0, decided once over its ten grid points: the row-tiled windows (the node rows, the rows'
    factors, the result) are at block `t` of their rows at point `t`, and the weight matrix is whole. -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The block of node rows at point `t` is rows `5000 t … 5000 t + 4999` of the array. -/
theorem rows0_0 (c : Dev nD) (t : Fin cfg0.N) (y : S5000x128.Idx) (i : S50000x128.Idx)
    (h0 : (i 0).val = t.val * 5000 + (y 0).val) (h1 : (i 1).val = (y 1).val) :
    (iblk0 V c 0 t : FVec Ideal S5000x128 .f32) y = (V c (Pipeline.arrRef spec0 0) : S50000x128.Idx → EReal) i := by
  obtain ⟨e0, e1, -⟩ := index0 t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The weight matrix is whole at every point. -/
theorem whole0_1 (c : Dev nD) (t : Fin cfg0.N) (y : S128x128.Idx) (i : S128x128.Idx)
    (h0 : (i 0).val = (y 0).val) (h1 : (i 1).val = (y 1).val) :
    (iblk0 V c 1 t : FVec Ideal S128x128 .f32) y = (V c (Pipeline.arrRef spec0 1) : S128x128.Idx → EReal) i := by
  obtain ⟨-, -, e2, e3, -⟩ := index0 t
  unfold iblk0
  rw [View.read_apply]
  show V c main_arg2 _ = V c main_arg2 _
  congr 1
  funext a
  apply Fin.ext
  match a with
  | ⟨0, _⟩ => show win0_1.index t 0 * 128 + 1 * (y 0).val = (i 0).val; rw [e2, h0]; omega
  | ⟨1, _⟩ => show win0_1.index t 1 * 128 + 1 * (y 1).val = (i 1).val; rw [e3, h1]; omega

/-- The block of row factors at point `t` is rows `5000 t … 5000 t + 4999` of the column. -/
theorem rows0_2 (c : Dev nD) (t : Fin cfg0.N) (y : S5000x1.Idx) (i : S50000x1.Idx)
    (h0 : (i 0).val = t.val * 5000 + (y 0).val) (h1 : (i 1).val = (y 1).val) :
    (iblk0 V c 2 t : FVec Ideal S5000x1 .f32) y = (V c (Pipeline.arrRef spec0 2) : S50000x1.Idx → EReal) i := by
  obtain ⟨-, -, -, -, e4, e5, -⟩ := index0 t
  unfold iblk0
  rw [View.read_apply]
  show V c main_v17 _ = V c main_v17 _
  congr 1
  funext a
  apply Fin.ext
  match a with
  | ⟨0, _⟩ => show win0_2.index t 0 * 5000 + 1 * (y 0).val = (i 0).val; rw [e4, h0]; omega
  | ⟨1, _⟩ => show win0_2.index t 1 * 1 + 1 * (y 1).val = (i 1).val; rw [e5, h1]; omega

/-- What point `t` writes back is block `t` of the scaled product of the arrays the region found. -/
theorem flushed0 (c : Dev nD) (t : Fin cfg0.N) :
    (dat0 V c).flushed 3 t = ((cfg0.win 3).blk t).view.read (Elt Ideal)
      (scaledProduct0 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S5000x1) zero_offsets]
  obtain ⟨-, -, -, -, -, -, e6, e7⟩ := index0 t
  funext j
  obtain ⟨p, q, rfl⟩ : ∃ (p : Fin 5000) (q : Fin 128), j = ix2 p q := ⟨j 0, j 1, eq_ix2 j⟩
  have hr : ((((cfg0.win 3).blk t).view.emb (ix2 p q)) 0).val = t.val * 5000 + p.val := by
    show win0_3.index t 0 * 5000 + 1 * p.val = _
    rw [e6]; omega
  have hf : ((((cfg0.win 3).blk t).view.emb (ix2 p q)) 1).val = q.val := by
    show win0_3.index t 1 * 128 + 1 * q.val = _
    rw [e7]; omega
  refine (pay0_apply (iblk0 V c 0 t) (iblk0 V c 1 t) (iblk0 V c 2 t) p q).trans ?_
  show _ = scaledProduct0 _ _ _ (((cfg0.win 3).blk t).view.emb (ix2 p q))
  unfold scaledProduct0
  refine congrArg₂ (· * ·) (Finset.sum_congr rfl fun k _ => congrArg₂ (· * ·) ?_ ?_) ?_
  · exact rows0_0 V c t (ix2 p k) _ hr rfl
  · exact whole0_1 V c t (ix2 k q) _ rfl hf
  · exact rows0_2 V c t (ix2 p (0 : Fin 1)) _ hr rfl

/-- An index of the result is in point `t`'s block iff each coordinate is in the block's range on its axis. -/
theorem mem_block0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v18).slice (win0_3.rect t)).set ↔ _
  rw [View.set_slice_whole, Rect.mem_set_unit]
  exact Iff.rfl

/-- The ten blocks cover the rows: row `r` is in the block of point `r / 5000`. -/
theorem rows_covered0 (i : S50000x128.Idx) :
    ∃ t : Fin cfg0.N, (cfg0.win 3).flush t = true ∧ i ∈ ((cfg0.win 3).blk t).view.set := by
  have hN : cfg0.N = 10 := N_0
  have h0 : (i 0).val < 50000 := (i 0).isLt
  have h1 : (i 1).val < 128 := (i 1).isLt
  have ht : (i 0).val / 5000 < cfg0.N := by rw [hN]; omega
  obtain ⟨-, -, -, -, -, -, e6, e7⟩ := index0 ⟨(i 0).val / 5000, ht⟩
  refine ⟨⟨(i 0).val / 5000, ht⟩, flush0_3 _, ?_⟩
  rw [mem_block0]
  intro a
  match a with
  | ⟨0, _⟩ =>
    show win0_3.index ⟨(i 0).val / 5000, ht⟩ 0 * 5000 ≤ (i 0).val
      ∧ (i 0).val < win0_3.index ⟨(i 0).val / 5000, ht⟩ 0 * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ 1 * 128 ≤ (i 1).val
      ∧ (i 1).val < win0_3.index ⟨(i 0).val / 5000, ht⟩ 1 * 128 + 128
    rw [e7]; omega

/-- THE ARRAY AFTER REGION 0: the scaled product of the arrays the region found. -/
theorem array0 (c : Dev nD) :
    (dat0 V c).arrAt 3 cfg0.N
      = scaledProduct0 (V c (Pipeline.arrRef spec0 0)) (V c (Pipeline.arrRef spec0 1)) (V c (Pipeline.arrRef spec0 2)) :=
  (dat0 V c).arrAt_eq_of_cover 3 _ (fun t _ => flushed0 V c t) rows_covered0

/-! ## Region 1: the previous layer finished (scale, bias, the positive part), times the second weight matrix, each row scaled -/

/-- Row `r` of the aggregated rows is scaled by its factor, the bias row is added and the negative entries are set to
    zero; that row times `W`, at column `f`, times the factor of row `r` again. -/
def scaledReluProduct1 (A : S50000x128.Idx → EReal) (d : S50000x1.Idx → EReal) (b : S1x128.Idx → EReal) (W : S128x128.Idx → EReal) :
    S50000x128.Idx → EReal :=
  fun i => (∑ k : Fin 128, max (A (ix2 (i 0) k) * d (ix2 (i 0) (0 : Fin 1)) + b (ix2 (0 : Fin 1) k)) 0 * W (ix2 k (i 1)))
    * d (ix2 (i 0) (0 : Fin 1))

/-- What the body computes from a block of 5000 aggregated rows, the rows' factors (read twice), the bias row and the
    weights, entry by entry: the column of factors is repeated along the row, the bias row down the rows, the positive
    part is the maximum with the zero word, the format changes are identities and the product starts from zero. -/
theorem pay1_apply (x0 : FVec Ideal S5000x128 .f32) (x1 : FVec Ideal S5000x1 .f32) (x2 : FVec Ideal S1x128 .f32)
    (x3 : FVec Ideal S128x128 .f32) (x4 : FVec Ideal S5000x1 .f32) (p : Fin 5000) (q : Fin 128) :
    k1_pay1 (F := Ideal) x0 x1 x2 x3 x4 (ix2 p q)
      = (∑ k : Fin 128, max (x0 (ix2 p k) * x1 (ix2 p (0 : Fin 1)) + x2 (ix2 (0 : Fin 1) k)) 0 * x3 (ix2 k q))
        * x4 (ix2 p (0 : Fin 1)) := by
  unfold k1_pay1
  refine (congrArg₂ (· * ·)
    (PlainDot.matmul_zero_apply dot_S5000x128_S128x128_S5000x128_1_0_0_1_n_n rfl none _ _ (ix2 p q))
    ((broadcastTo_a1_ab_apply _ broadcasts_S5000x1_S5000x128 p q).trans
      (congrFun (shapeCast_self x4 shapeCasts_S5000x1_S5000x1) (ix2 p (0 : Fin 1))))).trans ?_
  refine congrArg (· * x4 (ix2 p (0 : Fin 1))) (Finset.sum_congr rfl fun k _ => congrArg (· * x3 (ix2 k q)) ?_)
  exact congrArg₂ max
    (congrArg₂ (· + ·)
      (congrArg₂ (· * ·) (congrFun (shapeCast_self x0 shapeCasts_S5000x128_S5000x128) (ix2 p k))
        ((broadcastTo_a1_ab_apply _ broadcasts_S5000x1_S5000x128 p k).trans
          (congrFun (shapeCast_self x1 shapeCasts_S5000x1_S5000x1) (ix2 p (0 : Fin 1)))))
      ((broadcastTo_1b_ab_apply _ broadcasts_S1x128_S5000x128 p k).trans
        (congrFun (shapeCast_self x2 shapeCasts_S1x128_S1x128) (ix2 (0 : Fin 1) k))))
    Ideal.ofBits_zero_f32

/-- The index maps of region 1, decided once over its ten grid points: the row-tiled windows (the aggregated rows, the
    rows' factors, the result) are at block `t` of their rows at point `t`; the bias row and the weights are whole. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The block of aggregated rows at point `t` is rows `5000 t … 5000 t + 4999` of the array. -/
theorem rows1_0 (c : Dev nD) (t : Fin cfg1.N) (y : S5000x128.Idx) (i : S50000x128.Idx)
    (h0 : (i 0).val = t.val * 5000 + (y 0).val) (h1 : (i 1).val = (y 1).val) :
    (iblk1 V c 0 t : FVec Ideal S5000x128 .f32) y = (V c (Pipeline.arrRef spec1 0) : S50000x128.Idx → EReal) i := by
  obtain ⟨e0, e1, -⟩ := index1 t
  unfold iblk1
  rw [View.read_apply]
  show V c main_v29 _ = V c main_v29 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- The block of row factors at point `t` is rows `5000 t … 5000 t + 4999` of the column. -/
theorem rows1_1 (c : Dev nD) (t : Fin cfg1.N) (y : S5000x1.Idx) (i : S50000x1.Idx)
    (h0 : (i 0).val = t.val * 5000 + (y 0).val) (h1 : (i 1).val = (y 1).val) :
    (iblk1 V c 1 t : FVec Ideal S5000x1 .f32) y = (V c (Pipeline.arrRef spec1 1) : S50000x1.Idx → EReal) i := by
  obtain ⟨-, -, e2, e3, -⟩ := index1 t
  unfold iblk1
  rw [View.read_apply]
  show V c main_v17 _ = V c main_v17 _
  congr 1
  funext a
  apply Fin.ext
  match a with
  | ⟨0, _⟩ => show win1_1.index t 0 * 5000 + 1 * (y 0).val = (i 0).val; rw [e2, h0]; omega
  | ⟨1, _⟩ => show win1_1.index t 1 * 1 + 1 * (y 1).val = (i 1).val; rw [e3, h1]; omega

/-- The bias row is whole at every point. -/
theorem whole1_2 (c : Dev nD) (t : Fin cfg1.N) (y : S1x128.Idx) (i : S1x128.Idx)
    (h0 : (i 0).val = (y 0).val) (h1 : (i 1).val = (y 1).val) :
    (iblk1 V c 2 t : FVec Ideal S1x128 .f32) y = (V c (Pipeline.arrRef spec1 2) : S1x128.Idx → EReal) i := by
  obtain ⟨-, -, -, -, e4, e5, -⟩ := index1 t
  unfold iblk1
  rw [View.read_apply]
  show V c main_v30 _ = V c main_v30 _
  congr 1
  funext a
  apply Fin.ext
  match a with
  | ⟨0, _⟩ => show win1_2.index t 0 * 1 + 1 * (y 0).val = (i 0).val; rw [e4, h0]; omega
  | ⟨1, _⟩ => show win1_2.index t 1 * 128 + 1 * (y 1).val = (i 1).val; rw [e5, h1]; omega

/-- The weight matrix is whole at every point. -/
theorem whole1_3 (c : Dev nD) (t : Fin cfg1.N) (y : S128x128.Idx) (i : S128x128.Idx)
    (h0 : (i 0).val = (y 0).val) (h1 : (i 1).val = (y 1).val) :
    (iblk1 V c 3 t : FVec Ideal S128x128 .f32) y = (V c (Pipeline.arrRef spec1 3) : S128x128.Idx → EReal) i := by
  obtain ⟨-, -, -, -, -, -, e6, e7, -⟩ := index1 t
  unfold iblk1
  rw [View.read_apply]
  show V c main_arg4 _ = V c main_arg4 _
  congr 1
  funext a
  apply Fin.ext
  match a with
  | ⟨0, _⟩ => show win1_3.index t 0 * 128 + 1 * (y 0).val = (i 0).val; rw [e6, h0]; omega
  | ⟨1, _⟩ => show win1_3.index t 1 * 128 + 1 * (y 1).val = (i 1).val; rw [e7, h1]; omega

/-- What point `t` writes back is block `t` of that function of the arrays the region found. -/
theorem flushed1 (c : Dev nD) (t : Fin cfg1.N) :
    (dat1 V c).flushed 4 t = ((cfg1.win 4).blk t).view.read (Elt Ideal)
      (scaledReluProduct1 (V c (Pipeline.arrRef spec1 0)) (V c (Pipeline.arrRef spec1 1)) (V c (Pipeline.arrRef spec1 2))
        (V c (Pipeline.arrRef spec1 3))) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets, View.ld_unit_zero (S := S128x128) zero_offsets]
  obtain ⟨-, -, -, -, -, -, -, -, e8, e9⟩ := index1 t
  funext j
  obtain ⟨p, q, rfl⟩ : ∃ (p : Fin 5000) (q : Fin 128), j = ix2 p q := ⟨j 0, j 1, eq_ix2 j⟩
  have hr : ((((cfg1.win 4).blk t).view.emb (ix2 p q)) 0).val = t.val * 5000 + p.val := by
    show win1_4.index t 0 * 5000 + 1 * p.val = _
    rw [e8]; omega
  have hf : ((((cfg1.win 4).blk t).view.emb (ix2 p q)) 1).val = q.val := by
    show win1_4.index t 1 * 128 + 1 * q.val = _
    rw [e9]; omega
  refine (pay1_apply (iblk1 V c 0 t) (iblk1 V c 1 t) (iblk1 V c 2 t) (iblk1 V c 3 t) (iblk1 V c 1 t) p q).trans ?_
  show _ = scaledReluProduct1 _ _ _ _ (((cfg1.win 4).blk t).view.emb (ix2 p q))
  unfold scaledReluProduct1
  refine congrArg₂ (· * ·) (Finset.sum_congr rfl fun k _ => congrArg₂ (· * ·)
    (congrArg (max · 0) (congrArg₂ (· + ·) (congrArg₂ (· * ·) ?_ ?_) ?_)) ?_) ?_
  · exact rows1_0 V c t (ix2 p k) _ hr rfl
  · exact rows1_1 V c t (ix2 p (0 : Fin 1)) _ hr rfl
  · exact whole1_2 V c t (ix2 (0 : Fin 1) k) _ rfl rfl
  · exact whole1_3 V c t (ix2 k q) _ rfl hf
  · exact rows1_1 V c t (ix2 p (0 : Fin 1)) _ hr rfl

/-- An index of the result is in point `t`'s block iff each coordinate is in the block's range on its axis. -/
theorem mem_block1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v31).slice (win1_4.rect t)).set ↔ _
  rw [View.set_slice_whole, Rect.mem_set_unit]
  exact Iff.rfl

/-- The ten blocks cover the rows: row `r` is in the block of point `r / 5000`. -/
theorem rows_covered1 (i : S50000x128.Idx) :
    ∃ t : Fin cfg1.N, (cfg1.win 4).flush t = true ∧ i ∈ ((cfg1.win 4).blk t).view.set := by
  have hN : cfg1.N = 10 := N_1
  have h0 : (i 0).val < 50000 := (i 0).isLt
  have h1 : (i 1).val < 128 := (i 1).isLt
  have ht : (i 0).val / 5000 < cfg1.N := by rw [hN]; omega
  obtain ⟨-, -, -, -, -, -, -, -, e8, e9⟩ := index1 ⟨(i 0).val / 5000, ht⟩
  refine ⟨⟨(i 0).val / 5000, ht⟩, flush1_4 _, ?_⟩
  rw [mem_block1]
  intro a
  match a with
  | ⟨0, _⟩ =>
    show win1_4.index ⟨(i 0).val / 5000, ht⟩ 0 * 5000 ≤ (i 0).val
      ∧ (i 0).val < win1_4.index ⟨(i 0).val / 5000, ht⟩ 0 * 5000 + 5000
    rw [e8]; show (i 0).val / 5000 * 5000 ≤ (i 0).val ∧ (i 0).val < (i 0).val / 5000 * 5000 + 5000; omega
  | ⟨1, _⟩ =>
    show win1_4.index ⟨(i 0).val / 5000, ht⟩ 1 * 128 ≤ (i 1).val
      ∧ (i 1).val < win1_4.index ⟨(i 0).val / 5000, ht⟩ 1 * 128 + 128
    rw [e9]; omega

/-- THE ARRAY AFTER REGION 1: that function of the arrays the region found. -/
theorem array1 (c : Dev nD) :
    (dat1 V c).arrAt 4 cfg1.N
      = scaledReluProduct1 (V c (Pipeline.arrRef spec1 0)) (V c (Pipeline.arrRef spec1 1)) (V c (Pipeline.arrRef spec1 2))
          (V c (Pipeline.arrRef spec1 3)) :=
  (dat1 V c).arrAt_eq_of_cover 4 _ (fun t _ => flushed1 V c t) rows_covered1

/-! ## Region 2: the previous layer finished (scale, bias, the positive part), times the third weight matrix, each row scaled -/

/-- Row `r` of the aggregated rows is scaled by its factor, the bias row is added and the negative entries are set to
    zero; that row times `W`, at column `f`, times the factor of row `r` again. -/
def scaledReluProduct2 (A : S50000x128.Idx → EReal) (d : S50000x1.Idx → EReal) (b : S1x128.Idx → EReal) (W : S128x64.Idx → EReal) :
    S50000x64.Idx → EReal :=
  fun i => (∑ k : Fin 128, max (A (ix2 (i 0) k) * d (ix2 (i 0) (0 : Fin 1)) + b (ix2 (0 : Fin 1) k)) 0 * W (ix2 k (i 1)))
    * d (ix2 (i 0) (0 : Fin 1))

/-- What the body computes from a block of 5000 aggregated rows, the rows' factors (read twice), the bias row and the
    weights, entry by entry: the column of factors is repeated along the row, the bias row down the rows, the positive
    part is the maximum with the zero word, the format changes are identities and the product starts from zero. -/
theorem pay2_apply (x0 : FVec Ideal S5000x128 .f32) (x1 : FVec Ideal S5000x1 .f32) (x2 : FVec Ideal S1x128 .f32)
    (x3 : FVec Ideal S128x64 .f32) (x4 : FVec Ideal S5000x1 .f32) (p : Fin 5000) (q : Fin 64) :
    k2_pay1 (F := Ideal) x0 x1 x2 x3 x4 (ix2 p q)
      = (∑ k : Fin 128, max (x0 (ix2 p k) * x1 (ix2 p (0 : Fin 1)) + x2 (ix2 (0 : Fin 1) k)) 0 * x3 (ix2 k q))
        * x4 (ix2 p (0 : Fin 1)) := by
  unfold k2_pay1
  refine (congrArg₂ (· * ·)
    (PlainDot.matmul_zero_apply dot_S5000x128_S128x64_S5000x64_1_0_0_1_n_n rfl none _ _ (ix2 p q))
    ((broadcastTo_a1_ab_apply _ broadcasts_S5000x1_S5000x64 p q).trans
      (congrFun (shapeCast_self x4 shapeCasts_S5000x1_S5000x1) (ix2 p (0 : Fin 1))))).trans ?_
  refine congrArg (· * x4 (ix2 p (0 : Fin 1))) (Finset.sum_congr rfl fun k _ => congrArg (· * x3 (ix2 k q)) ?_)
  exact congrArg₂ max
    (congrArg₂ (· + ·)
      (congrArg₂ (· * ·) (congrFun (shapeCast_self x0 shapeCasts_S5000x128_S5000x128) (ix2 p k))
        ((broadcastTo_a1_ab_apply _ broadcasts_S5000x1_S5000x128 p k).trans
          (congrFun (shapeCast_self x1 shapeCasts_S5000x1_S5000x1) (ix2 p (0 : Fin 1)))))
      ((broadcastTo_1b_ab_apply _ broadcasts_S1x128_S5000x128 p k).trans
        (congrFun (shapeCast_self x2 shapeCasts_S1x128_S1x128) (ix2 (0 : Fin 1) k))))
    Ideal.ofBits_zero_f32

/-- The index maps of region 2, decided once over its ten grid points: the row-tiled windows (the aggregated rows, the
    rows' factors, the result) are at block `t` of their rows at point `t`; the bias row and the weights are whole. -/
theorem index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The block of aggregated rows at point `t` is rows `5000 t … 5000 t + 4999` of the array. -/
theorem rows2_0 (c : Dev nD) (t : Fin cfg2.N) (y : S5000x128.Idx) (i : S50000x128.Idx)
    (h0 : (i 0).val = t.val * 5000 + (y 0).val) (h1 : (i 1).val = (y 1).val) :
    (iblk2 V c 0 t : FVec Ideal S5000x128 .f32) y = (V c (Pipeline.arrRef spec2 0) : S50000x128.Idx → EReal) i := by
  obtain ⟨e0, e1, -⟩ := index2 t
  unfold iblk2
  rw [View.read_apply]
  show V c main_v42 _ = V c main_v42 _
  congr 1
  funext a
  apply Fin.ext
  match a with
  | ⟨0, _⟩ => show win2_0.index t 0 * 5000 + 1 * (y 0).val = (i 0).val; rw [e0, h0]; omega
  | ⟨1, _⟩ => show win2_0.index t 1 * 128 + 1 * (y 1).val = (i 1).val; rw [e1, h1]; omega

/-- The block of row factors at point `t` is rows `5000 t … 5000 t + 4999` of the column. -/
theorem rows2_1 (c : Dev nD) (t : Fin cfg2.N) (y : S5000x1.Idx) (i : S50000x1.Idx)
    (h0 : (i 0).val = t.val * 5000 + (y 0).val) (h1 : (i 1).val = (y 1).val) :
    (iblk2 V c 1 t : FVec Ideal S5000x1 .f32) y = (V c (Pipeline.arrRef spec2 1) : S50000x1.Idx → EReal) i := by
  obtain ⟨-, -, e2, e3, -⟩ := index2 t
  unfold iblk2
  rw [View.read_apply]
  show V c main_v17 _ = V c main_v17 _
  congr 1
  funext a
  apply Fin.ext
  match a with
  | ⟨0, _⟩ => show win2_1.index t 0 * 5000 + 1 * (y 0).val = (i 0).val; rw [e2, h0]; omega
  | ⟨1, _⟩ => show win2_1.index t 1 * 1 + 1 * (y 1).val = (i 1).val; rw [e3, h1]; omega

/-- The bias row is whole at every point. -/
theorem whole2_2 (c : Dev nD) (t : Fin cfg2.N) (y : S1x128.Idx) (i : S1x128.Idx)
    (h0 : (i 0).val = (y 0).val) (h1 : (i 1).val = (y 1).val) :
    (iblk2 V c 2 t : FVec Ideal S1x128 .f32) y = (V c (Pipeline.arrRef spec2 2) : S1x128.Idx → EReal) i := by
  obtain ⟨-, -, -, -, e4, e5, -⟩ := index2 t
  unfold iblk2
  rw [View.read_apply]
  show V c main_v43 _ = V c main_v43 _
  congr 1
  funext a
  apply Fin.ext
  match a with
  | ⟨0, _⟩ => show win2_2.index t 0 * 1 + 1 * (y 0).val = (i 0).val; rw [e4, h0]; omega
  | ⟨1, _⟩ => show win2_2.index t 1 * 128 + 1 * (y 1).val = (i 1).val; rw [e5, h1]; omega

/-- The weight matrix is whole at every point. -/
theorem whole2_3 (c : Dev nD) (t : Fin cfg2.N) (y : S128x64.Idx) (i : S128x64.Idx)
    (h0 : (i 0).val = (y 0).val) (h1 : (i 1).val = (y 1).val) :
    (iblk2 V c 3 t : FVec Ideal S128x64 .f32) y = (V c (Pipeline.arrRef spec2 3) : S128x64.Idx → EReal) i := by
  obtain ⟨-, -, -, -, -, -, e6, e7, -⟩ := index2 t
  unfold iblk2
  rw [View.read_apply]
  show V c main_arg6 _ = V c main_arg6 _
  congr 1
  funext a
  apply Fin.ext
  match a with
  | ⟨0, _⟩ => show win2_3.index t 0 * 128 + 1 * (y 0).val = (i 0).val; rw [e6, h0]; omega
  | ⟨1, _⟩ => show win2_3.index t 1 * 64 + 1 * (y 1).val = (i 1).val; rw [e7, h1]; omega

/-- What point `t` writes back is block `t` of that function of the arrays the region found. -/
theorem flushed2 (c : Dev nD) (t : Fin cfg2.N) :
    (dat2 V c).flushed 4 t = ((cfg2.win 4).blk t).view.read (Elt Ideal)
      (scaledReluProduct2 (V c (Pipeline.arrRef spec2 0)) (V c (Pipeline.arrRef spec2 1)) (V c (Pipeline.arrRef spec2 2))
        (V c (Pipeline.arrRef spec2 3))) := by
  show (cfg2.win 4).cut (grid2.coords t) ((dat2 V c).after 4 t) = _
  rw [after2_4]
  unfold out2_4
  rw [View.canon_unit_zero zero_offsets]
  simp only [View.ld_unit_zero (S := S5000x128) zero_offsets, View.ld_unit_zero (S := S5000x1) zero_offsets,
    View.ld_unit_zero (S := S1x128) zero_offsets, View.ld_unit_zero (S := S128x64) zero_offsets]
  obtain ⟨-, -, -, -, -, -, -, -, e8, e9⟩ := index2 t
  funext j
  obtain ⟨p, q, rfl⟩ : ∃ (p : Fin 5000) (q : Fin 64), j = ix2 p q := ⟨j 0, j 1, eq_ix2 j⟩
  have hr : ((((cfg2.win 4).blk t).view.emb (ix2 p q)) 0).val = t.val * 5000 + p.val := by
    show win2_4.index t 0 * 5000 + 1 * p.val = _
    rw [e8]; omega
  have hf : ((((cfg2.win 4).blk t).view.emb (ix2 p q)) 1).val = q.val := by
    show win2_4.index t 1 * 64 + 1 * q.val = _
    rw [e9]; omega
  refine (pay2_apply (iblk2 V c 0 t) (iblk2 V c 1 t) (iblk2 V c 2 t) (iblk2 V c 3 t) (iblk2 V c 1 t) p q).trans ?_
  show _ = scaledReluProduct2 _ _ _ _ (((cfg2.win 4).blk t).view.emb (ix2 p q))
  unfold scaledReluProduct2
  refine congrArg₂ (· * ·) (Finset.sum_congr rfl fun k _ => congrArg₂ (· * ·)
    (congrArg (max · 0) (congrArg₂ (· + ·) (congrArg₂ (· * ·) ?_ ?_) ?_)) ?_) ?_
  · exact rows2_0 V c t (ix2 p k) _ hr rfl
  · exact rows2_1 V c t (ix2 p (0 : Fin 1)) _ hr rfl
  · exact whole2_2 V c t (ix2 (0 : Fin 1) k) _ rfl rfl
  · exact whole2_3 V c t (ix2 k q) _ rfl hf
  · exact rows2_1 V c t (ix2 p (0 : Fin 1)) _ hr rfl

/-- An index of the result is in point `t`'s block iff each coordinate is in the block's range on its axis. -/
theorem mem_block2 (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v44).slice (win2_4.rect t)).set ↔ _
  rw [View.set_slice_whole, Rect.mem_set_unit]
  exact Iff.rfl

/-- The ten blocks cover the rows: row `r` is in the block of point `r / 5000`. -/
theorem rows_covered2 (i : S50000x64.Idx) :
    ∃ t : Fin cfg2.N, (cfg2.win 4).flush t = true ∧ i ∈ ((cfg2.win 4).blk t).view.set := by
  have hN : cfg2.N = 10 := N_2
  have h0 : (i 0).val < 50000 := (i 0).isLt
  have h1 : (i 1).val < 64 := (i 1).isLt
  have ht : (i 0).val / 5000 < cfg2.N := by rw [hN]; omega
  obtain ⟨-, -, -, -, -, -, -, -, e8, e9⟩ := index2 ⟨(i 0).val / 5000, ht⟩
  refine ⟨⟨(i 0).val / 5000, ht⟩, flush2_4 _, ?_⟩
  rw [mem_block2]
  intro a
  match a with
  | ⟨0, _⟩ =>
    show win2_4.index ⟨(i 0).val / 5000, ht⟩ 0 * 5000 ≤ (i 0).val
      ∧ (i 0).val < win2_4.index ⟨(i 0).val / 5000, ht⟩ 0 * 5000 + 5000
    rw [e8]; show (i 0).val / 5000 * 5000 ≤ (i 0).val ∧ (i 0).val < (i 0).val / 5000 * 5000 + 5000; omega
  | ⟨1, _⟩ =>
    show win2_4.index ⟨(i 0).val / 5000, ht⟩ 1 * 64 ≤ (i 1).val
      ∧ (i 1).val < win2_4.index ⟨(i 0).val / 5000, ht⟩ 1 * 64 + 64
    rw [e9]; omega

/-- THE ARRAY AFTER REGION 2: that function of the arrays the region found. -/
theorem array2 (c : Dev nD) :
    (dat2 V c).arrAt 4 cfg2.N
      = scaledReluProduct2 (V c (Pipeline.arrRef spec2 0)) (V c (Pipeline.arrRef spec2 1)) (V c (Pipeline.arrRef spec2 2))
          (V c (Pipeline.arrRef spec2 3)) :=
  (dat2 V c).arrAt_eq_of_cover 4 _ (fun t _ => flushed2 V c t) rows_covered2

/-! ## Region 3: the last layer finished (scale and bias, no positive part), and its product with the one output column -/

/-- Row `r` of the aggregated rows scaled by its factor, plus the bias row: the node embeddings. -/
def scaledBiased3 (A : S50000x64.Idx → EReal) (d : S50000x1.Idx → EReal) (b : S1x64.Idx → EReal) : S50000x64.Idx → EReal :=
  fun i => A (ix2 (i 0) (i 1)) * d (ix2 (i 0) (0 : Fin 1)) + b (ix2 (0 : Fin 1) (i 1))

/-- The embedding of row `r` times the output column, plus the output bias: one number per node. -/
def decoded3 (A : S50000x64.Idx → EReal) (d : S50000x1.Idx → EReal) (b : S1x64.Idx → EReal) (Wout : S64x1.Idx → EReal)
    (bout : S1x1.Idx → EReal) : S50000x1.Idx → EReal :=
  fun i => (∑ k : Fin 64, (A (ix2 (i 0) k) * d (ix2 (i 0) (0 : Fin 1)) + b (ix2 (0 : Fin 1) k)) * Wout (ix2 k (0 : Fin 1)))
    + bout (ix2 (0 : Fin 1) (0 : Fin 1))

/-- The body's first result, entry by entry: the column of factors repeated along the row, the bias row down the rows. -/
theorem pay3_1_apply (x0 : FVec Ideal S5000x64 .f32) (x1 : FVec Ideal S5000x1 .f32) (x2 : FVec Ideal S1x64 .f32)
    (p : Fin 5000) (q : Fin 64) :
    k3_pay1 (F := Ideal) x0 x1 x2 (ix2 p q) = x0 (ix2 p q) * x1 (ix2 p (0 : Fin 1)) + x2 (ix2 (0 : Fin 1) q) := by
  unfold k3_pay1
  exact congrArg₂ (· + ·)
    (congrArg₂ (· * ·) (congrFun (shapeCast_self x0 shapeCasts_S5000x64_S5000x64) (ix2 p q))
      ((broadcastTo_a1_ab_apply _ broadcasts_S5000x1_S5000x64 p q).trans
        (congrFun (shapeCast_self x1 shapeCasts_S5000x1_S5000x1) (ix2 p (0 : Fin 1)))))
    ((broadcastTo_1b_ab_apply _ broadcasts_S1x64_S5000x64 p q).trans
      (congrFun (shapeCast_self x2 shapeCasts_S1x64_S1x64) (ix2 (0 : Fin 1) q)))

/-- The body's second result, entry by entry: the first result's rows times the output column from the zero accumulator, plus
    the one bias word repeated down the rows. -/
theorem pay3_2_apply (x0 : FVec Ideal S5000x64 .f32) (x1 : FVec Ideal S5000x1 .f32) (x2 : FVec Ideal S1x64 .f32)
    (x3 : FVec Ideal S64x1 .f32) (x4 : FVec Ideal S1x1 .f32) (p : Fin 5000) :
    k3_pay2 (F := Ideal) x0 x1 x2 x3 x4 (ix2 p (0 : Fin 1))
      = (∑ k : Fin 64, (x0 (ix2 p k) * x1 (ix2 p (0 : Fin 1)) + x2 (ix2 (0 : Fin 1) k)) * x3 (ix2 k (0 : Fin 1)))
        + x4 (ix2 (0 : Fin 1) (0 : Fin 1)) := by
  unfold k3_pay2
  refine (congrArg₂ (· + ·)
    (PlainDot.matmul_zero_apply dot_S5000x64_S64x1_S5000x1_1_0_0_1_n_n rfl none _ _ (ix2 p (0 : Fin 1)))
    ((broadcastTo_1b_ab_apply _ broadcasts_S1x1_S5000x1 p (0 : Fin 1)).trans
      (congrFun (shapeCast_self x4 shapeCasts_S1x1_S1x1) (ix2 (0 : Fin 1) (0 : Fin 1))))).trans ?_
  refine congrArg (· + x4 (ix2 (0 : Fin 1) (0 : Fin 1)))
    (Finset.sum_congr rfl fun k _ => congrArg (· * x3 (ix2 k (0 : Fin 1))) ?_)
  exact pay3_1_apply x0 x1 x2 p k

/-- The index maps of region 3, decided once over its ten grid points: the row-tiled windows (the aggregated rows, the
    rows' factors, the two results) are at block `t` of their rows at point `t`; the bias row, the output column and the
    output bias are whole. -/
theorem index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- The block of aggregated rows at point `t` is rows `5000 t … 5000 t + 4999` of the array. -/
theorem rows3_0 (c : Dev nD) (t : Fin cfg3.N) (y : S5000x64.Idx) (i : S50000x64.Idx)
    (h0 : (i 0).val = t.val * 5000 + (y 0).val) (h1 : (i 1).val = (y 1).val) :
    (iblk3 V c 0 t : FVec Ideal S5000x64 .f32) y = (V c (Pipeline.arrRef spec3 0) : S50000x64.Idx → EReal) i := by
  obtain ⟨e0, e1, -⟩ := index3 t
  unfold iblk3
  rw [View.read_apply]
  show V c main_v55 _ = V c main_v55 _
  congr 1
  funext a
  apply Fin.ext
  match a with
  | ⟨0, _⟩ => show win3_0.index t 0 * 5000 + 1 * (y 0).val = (i 0).val; rw [e0, h0]; omega
  | ⟨1, _⟩ => show win3_0.index t 1 * 64 + 1 * (y 1).val = (i 1).val; rw [e1, h1]; omega

/-- The block of row factors at point `t` is rows `5000 t … 5000 t + 4999` of the column. -/
theorem rows3_1 (c : Dev nD) (t : Fin cfg3.N) (y : S5000x1.Idx) (i : S50000x1.Idx)
    (h0 : (i 0).val = t.val * 5000 + (y 0).val) (h1 : (i 1).val = (y 1).val) :
    (iblk3 V c 1 t : FVec Ideal S5000x1 .f32) y = (V c (Pipeline.arrRef spec3 1) : S50000x1.Idx → EReal) i := by
  obtain ⟨-, -, e2, e3, -⟩ := index3 t
  unfold iblk3
  rw [View.read_apply]
  show V c main_v17 _ = V c main_v17 _
  congr 1
  funext a
  apply Fin.ext
  match a with
  | ⟨0, _⟩ => show win3_1.index t 0 * 5000 + 1 * (y 0).val = (i 0).val; rw [e2, h0]; omega
  | ⟨1, _⟩ => show win3_1.index t 1 * 1 + 1 * (y 1).val = (i 1).val; rw [e3, h1]; omega

/-- The bias row is whole at every point. -/
theorem whole3_2 (c : Dev nD) (t : Fin cfg3.N) (y : S1x64.Idx) (i : S1x64.Idx)
    (h0 : (i 0).val = (y 0).val) (h1 : (i 1).val = (y 1).val) :
    (iblk3 V c 2 t : FVec Ideal S1x64 .f32) y = (V c (Pipeline.arrRef spec3 2) : S1x64.Idx → EReal) i := by
  obtain ⟨-, -, -, -, e4, e5, -⟩ := index3 t
  unfold iblk3
  rw [View.read_apply]
  show V c main_v56 _ = V c main_v56 _
  congr 1
  funext a
  apply Fin.ext
  match a with
  | ⟨0, _⟩ => show win3_2.index t 0 * 1 + 1 * (y 0).val = (i 0).val; rw [e4, h0]; omega
  | ⟨1, _⟩ => show win3_2.index t 1 * 64 + 1 * (y 1).val = (i 1).val; rw [e5, h1]; omega

/-- The output column is whole at every point. -/
theorem whole3_3 (c : Dev nD) (t : Fin cfg3.N) (y : S64x1.Idx) (i : S64x1.Idx)
    (h0 : (i 0).val = (y 0).val) (h1 : (i 1).val = (y 1).val) :
    (iblk3 V c 3 t : FVec Ideal S64x1 .f32) y = (V c (Pipeline.arrRef spec3 3) : S64x1.Idx → EReal) i := by
  obtain ⟨-, -, -, -, -, -, e6, e7, -⟩ := index3 t
  unfold iblk3
  rw [View.read_apply]
  show V c main_arg8 _ = V c main_arg8 _
  congr 1
  funext a
  apply Fin.ext
  match a with
  | ⟨0, _⟩ => show win3_3.index t 0 * 64 + 1 * (y 0).val = (i 0).val; rw [e6, h0]; omega
  | ⟨1, _⟩ => show win3_3.index t 1 * 1 + 1 * (y 1).val = (i 1).val; rw [e7, h1]; omega

/-- The output bias is whole at every point. -/
theorem whole3_4 (c : Dev nD) (t : Fin cfg3.N) (y : S1x1.Idx) (i : S1x1.Idx)
    (h0 : (i 0).val = (y 0).val) (h1 : (i 1).val = (y 1).val) :
    (iblk3 V c 4 t : FVec Ideal S1x1 .f32) y = (V c (Pipeline.arrRef spec3 4) : S1x1.Idx → EReal) i := by
  obtain ⟨-, -, -, -, -, -, -, -, e8, e9, -⟩ := index3 t
  unfold iblk3
  rw [View.read_apply]
  show V c main_v57 _ = V c main_v57 _
  congr 1
  funext a
  apply Fin.ext
  match a with
  | ⟨0, _⟩ => show win3_4.index t 0 * 1 + 1 * (y 0).val = (i 0).val; rw [e8, h0]; omega
  | ⟨1, _⟩ => show win3_4.index t 1 * 1 + 1 * (y 1).val = (i 1).val; rw [e9, h1]; omega

/-- What point `t` writes back to the embeddings is block `t` of `scaledBiased3` of the arrays the region found. -/
theorem flushed3_5 (c : Dev nD) (t : Fin cfg3.N) :
    (dat3 V c).flushed 5 t = ((cfg3.win 5).blk t).view.read (Elt Ideal)
      (scaledBiased3 (V c (Pipeline.arrRef spec3 0)) (V c (Pipeline.arrRef spec3 1)) (V c (Pipeline.arrRef spec3 2))) := by
  show (cfg3.win 5).cut (grid3.coords t) ((dat3 V c).after 5 t) = _
  rw [after3_5]
  unfold out3_5
  rw [View.canon_unit_zero zero_offsets]
  simp only [View.ld_unit_zero (S := S5000x64) zero_offsets, View.ld_unit_zero (S := S5000x1) zero_offsets,
    View.ld_unit_zero (S := S1x64) zero_offsets]
  obtain ⟨-, -, -, -, -, -, -, -, -, -, e10, e11, -⟩ := index3 t
  funext j
  obtain ⟨p, q, rfl⟩ : ∃ (p : Fin 5000) (q : Fin 64), j = ix2 p q := ⟨j 0, j 1, eq_ix2 j⟩
  have hr : ((((cfg3.win 5).blk t).view.emb (ix2 p q)) 0).val = t.val * 5000 + p.val := by
    show win3_5.index t 0 * 5000 + 1 * p.val = _
    rw [e10]; omega
  have hf : ((((cfg3.win 5).blk t).view.emb (ix2 p q)) 1).val = q.val := by
    show win3_5.index t 1 * 64 + 1 * q.val = _
    rw [e11]; omega
  refine (pay3_1_apply (iblk3 V c 0 t) (iblk3 V c 1 t) (iblk3 V c 2 t) p q).trans ?_
  show _ = scaledBiased3 _ _ _ (((cfg3.win 5).blk t).view.emb (ix2 p q))
  unfold scaledBiased3
  refine congrArg₂ (· + ·) (congrArg₂ (· * ·) ?_ ?_) ?_
  · exact rows3_0 V c t (ix2 p q) _ hr hf
  · exact rows3_1 V c t (ix2 p (0 : Fin 1)) _ hr rfl
  · exact whole3_2 V c t (ix2 (0 : Fin 1) q) _ rfl hf

/-- What point `t` writes back to the decoded column is block `t` of `decoded3` of the arrays the region found. -/
theorem flushed3_6 (c : Dev nD) (t : Fin cfg3.N) :
    (dat3 V c).flushed 6 t = ((cfg3.win 6).blk t).view.read (Elt Ideal)
      (decoded3 (V c (Pipeline.arrRef spec3 0)) (V c (Pipeline.arrRef spec3 1)) (V c (Pipeline.arrRef spec3 2))
        (V c (Pipeline.arrRef spec3 3)) (V c (Pipeline.arrRef spec3 4))) := by
  show (cfg3.win 6).cut (grid3.coords t) ((dat3 V c).after 6 t) = _
  rw [after3_6]
  unfold out3_6
  rw [View.canon_unit_zero zero_offsets]
  simp only [View.ld_unit_zero (S := S5000x64) zero_offsets, View.ld_unit_zero (S := S5000x1) zero_offsets,
    View.ld_unit_zero (S := S1x64) zero_offsets, View.ld_unit_zero (S := S64x1) zero_offsets,
    View.ld_unit_zero (S := S1x1) zero_offsets]
  obtain ⟨-, -, -, -, -, -, -, -, -, -, -, -, e12, e13⟩ := index3 t
  funext j
  obtain ⟨p, u, rfl⟩ : ∃ (p : Fin 5000) (u : Fin 1), j = ix2 p u := ⟨j 0, j 1, eq_ix2 j⟩
  obtain rfl : u = 0 := Subsingleton.elim _ _
  have hr : ((((cfg3.win 6).blk t).view.emb (ix2 p (0 : Fin 1))) 0).val = t.val * 5000 + p.val := by
    show win3_6.index t 0 * 5000 + 1 * p.val = _
    rw [e12]; omega
  refine (pay3_2_apply (iblk3 V c 0 t) (iblk3 V c 1 t) (iblk3 V c 2 t) (iblk3 V c 3 t) (iblk3 V c 4 t) p).trans ?_
  show _ = decoded3 _ _ _ _ _ (((cfg3.win 6).blk t).view.emb (ix2 p (0 : Fin 1)))
  unfold decoded3
  refine congrArg₂ (· + ·) (Finset.sum_congr rfl fun k _ => congrArg₂ (· * ·)
    (congrArg₂ (· + ·) (congrArg₂ (· * ·) ?_ ?_) ?_) ?_) ?_
  · exact rows3_0 V c t (ix2 p k) _ hr rfl
  · exact rows3_1 V c t (ix2 p (0 : Fin 1)) _ hr rfl
  · exact whole3_2 V c t (ix2 (0 : Fin 1) k) _ rfl rfl
  · exact whole3_3 V c t (ix2 k (0 : Fin 1)) _ rfl rfl
  · exact whole3_4 V c t (ix2 (0 : Fin 1) (0 : Fin 1)) _ rfl rfl

/-- An index of the embeddings is in point `t`'s block iff each coordinate is in the block's range on its axis. -/
theorem mem_block3_5 (t : Fin cfg3.N) (i : S50000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v58_0).slice (win3_5.rect t)).set ↔ _
  rw [View.set_slice_whole, Rect.mem_set_unit]
  exact Iff.rfl

/-- An index of the decoded column is in point `t`'s block iff each coordinate is in the block's range on its axis. -/
theorem mem_block3_6 (t : Fin cfg3.N) (i : S50000x1.Idx) :
    i ∈ ((cfg3.win 6).blk t).view.set ↔ ∀ a : Fin 2, win3_6.index t a * S5000x1.size a ≤ (i a).val
      ∧ (i a).val < win3_6.index t a * S5000x1.size a + S5000x1.size a := by
  show i ∈ ((View.whole main_v58_1).slice (win3_6.rect t)).set ↔ _
  rw [View.set_slice_whole, Rect.mem_set_unit]
  exact Iff.rfl

/-- The ten blocks cover the rows of the embeddings: row `r` is in the block of point `r / 5000`. -/
theorem rows_covered3_5 (i : S50000x64.Idx) :
    ∃ t : Fin cfg3.N, (cfg3.win 5).flush t = true ∧ i ∈ ((cfg3.win 5).blk t).view.set := by
  have hN : cfg3.N = 10 := N_3
  have h0 : (i 0).val < 50000 := (i 0).isLt
  have h1 : (i 1).val < 64 := (i 1).isLt
  have ht : (i 0).val / 5000 < cfg3.N := by rw [hN]; omega
  obtain ⟨-, -, -, -, -, -, -, -, -, -, e10, e11, -⟩ := index3 ⟨(i 0).val / 5000, ht⟩
  refine ⟨⟨(i 0).val / 5000, ht⟩, flush3_5 _, ?_⟩
  rw [mem_block3_5]
  intro a
  match a with
  | ⟨0, _⟩ =>
    show win3_5.index ⟨(i 0).val / 5000, ht⟩ 0 * 5000 ≤ (i 0).val
      ∧ (i 0).val < win3_5.index ⟨(i 0).val / 5000, ht⟩ 0 * 5000 + 5000
    rw [e10]; show (i 0).val / 5000 * 5000 ≤ (i 0).val ∧ (i 0).val < (i 0).val / 5000 * 5000 + 5000; omega
  | ⟨1, _⟩ =>
    show win3_5.index ⟨(i 0).val / 5000, ht⟩ 1 * 64 ≤ (i 1).val
      ∧ (i 1).val < win3_5.index ⟨(i 0).val / 5000, ht⟩ 1 * 64 + 64
    rw [e11]; omega

/-- The ten blocks cover the rows of the decoded column: row `r` is in the block of point `r / 5000`. -/
theorem rows_covered3_6 (i : S50000x1.Idx) :
    ∃ t : Fin cfg3.N, (cfg3.win 6).flush t = true ∧ i ∈ ((cfg3.win 6).blk t).view.set := by
  have hN : cfg3.N = 10 := N_3
  have h0 : (i 0).val < 50000 := (i 0).isLt
  have h1 : (i 1).val < 1 := (i 1).isLt
  have ht : (i 0).val / 5000 < cfg3.N := by rw [hN]; omega
  obtain ⟨-, -, -, -, -, -, -, -, -, -, -, -, e12, e13⟩ := index3 ⟨(i 0).val / 5000, ht⟩
  refine ⟨⟨(i 0).val / 5000, ht⟩, flush3_6 _, ?_⟩
  rw [mem_block3_6]
  intro a
  match a with
  | ⟨0, _⟩ =>
    show win3_6.index ⟨(i 0).val / 5000, ht⟩ 0 * 5000 ≤ (i 0).val
      ∧ (i 0).val < win3_6.index ⟨(i 0).val / 5000, ht⟩ 0 * 5000 + 5000
    rw [e12]; show (i 0).val / 5000 * 5000 ≤ (i 0).val ∧ (i 0).val < (i 0).val / 5000 * 5000 + 5000; omega
  | ⟨1, _⟩ =>
    show win3_6.index ⟨(i 0).val / 5000, ht⟩ 1 * 1 ≤ (i 1).val
      ∧ (i 1).val < win3_6.index ⟨(i 0).val / 5000, ht⟩ 1 * 1 + 1
    rw [e13]; omega

/-- THE EMBEDDINGS AFTER REGION 3: the aggregated rows scaled by their factors, plus the bias row. -/
theorem array3_5 (c : Dev nD) :
    (dat3 V c).arrAt 5 cfg3.N
      = scaledBiased3 (V c (Pipeline.arrRef spec3 0)) (V c (Pipeline.arrRef spec3 1)) (V c (Pipeline.arrRef spec3 2)) :=
  (dat3 V c).arrAt_eq_of_cover 5 _ (fun t _ => flushed3_5 V c t) rows_covered3_5

/-- THE DECODED COLUMN AFTER REGION 3: each embedding times the output column, plus the output bias. -/
theorem array3_6 (c : Dev nD) :
    (dat3 V c).arrAt 6 cfg3.N
      = decoded3 (V c (Pipeline.arrRef spec3 0)) (V c (Pipeline.arrRef spec3 1)) (V c (Pipeline.arrRef spec3 2))
          (V c (Pipeline.arrRef spec3 3)) (V c (Pipeline.arrRef spec3 4)) :=
  (dat3 V c).arrAt_eq_of_cover 6 _ (fun t _ => flushed3_6 V c t) rows_covered3_6

end Cert.KernelIdeal.RegionValue

end
-- ==== Proof.KernelTerms.lean ====
/-
  The kernel's terms over plain arrays: what the host stretches compute between the four regions, and the nest of the
  three graph-convolution layers and the decoder.

  From the edge list (a row of source nodes over a row of target nodes) the first stretches make: the sources and the
  targets, each followed by every node itself (one self loop per node); each node's degree, ones added up at the
  targets; and each node's factor, one over the square root of its degree (zero for a node no edge enters). Between
  two regions a stretch passes messages: row `src e` of the previous region's rows is added into row `dst e`, over
  all edges and self loops. The layers are then the regions' functions (scaled products, with the previous layer's bias
  and positive part folded in) of the passed rows.
-/
import proofs.«106710_j9405978378565_2_alg».proof.Proof.Gen.KernelIdeal
import proofs.«106710_j9405978378565_2_alg».proof.Proof.RegionArrays

noncomputable section

namespace Cert.KernelIdeal.StageValue

open Cert.KernelIdeal Cert.KernelIdeal.Gen Idealize.ShloMosaic
open Cert.KernelIdeal.RegionValue

/-! ## The host stretches' terms -/

/-- The contents of a buffer of shape `S` and element type `e`, its floats on the extended reals. -/
abbrev Arr (S : Shape) (e : EltTy) : Type := (⟨S, e⟩ : BufTy).Contents (Elt Ideal)

/-- The source node of every edge, followed by every node itself (one self loop per node). -/
def sources (ei : Arr S2x800000 .i32) : Arr S850000 .i32 :=
  concatenate S850000 0
    [⟨S800000, shapeCast S800000 (extractStridedSlice S1x800000 ![0, 0] ei slices_S2x800000_S1x800000_0_0) shapeCasts_S1x800000_S800000⟩,
      ⟨S50000, iotaInDim S50000 32 0⟩] concatenates_S800000_S50000_S850000_d0

/-- The target node of every edge, followed by every node itself. -/
def targets (ei : Arr S2x800000 .i32) : Arr S850000 .i32 :=
  concatenate S850000 0
    [⟨S800000, shapeCast S800000 (extractStridedSlice S1x800000 ![1, 0] ei slices_S2x800000_S1x800000_1_0) shapeCasts_S1x800000_S800000⟩,
      ⟨S50000, iotaInDim S50000 32 0⟩] concatenates_S800000_S50000_S850000_d0

/-- The number of edges into each node, self loop included: ones added up at the targets. -/
def degree (ei : Arr S2x800000 .i32) : Arr S50000 .f32 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 (targets ei))
    (broadcastInDim S850000 ![] bcast_S_S850000 (constant (F := Ideal) S_ .f32 0x3F800000#32))

/-- Whether a node has an edge into it. -/
def hasEdge (ei : Arr S2x800000 .i32) : Arr S50000 .i1 :=
  cmpf .ogt (degree ei) (broadcastInDim S50000 ![] bcast_S_S50000 (constant (F := Ideal) S_ .f32 0x00000000#32))

/-- One over the square root of the degree, the degree taken at least one. -/
def rsqrtDegree (ei : Arr S2x800000 .i32) : Arr S50000 .f32 :=
  Host.rsqrt (maximumf (degree ei) (broadcastInDim S50000 ![] bcast_S_S50000 (constant (F := Ideal) S_ .f32 0x3F800000#32)))

/-- Each node's factor: one over the square root of its degree where it has an edge, zero elsewhere. -/
def dis (ei : Arr S2x800000 .i32) : Arr S50000 .f32 :=
  select (hasEdge ei) (rsqrtDegree ei) (broadcastInDim S50000 ![] bcast_S_S50000 (id (constant (F := Ideal) S_ .f32 0x00000000#32)))

/-- The factors as a column. -/
def d2 (ei : Arr S2x800000 .i32) : Arr S50000x1 .f32 :=
  shapeCast S50000x1 (dis ei) shapeCasts_S50000_S50000x1

/-- The sources as a column of row numbers: a negative number counts from the end. -/
def srcCol (ei : Arr S2x800000 .i32) : Arr S850000x1 .i32 :=
  broadcastInDim S850000x1 ![0] bcast_S850000_S850000x1_0
    (select (cmpi .slt (sources ei) (broadcastInDim S850000 ![] bcast_S_S850000 (constantI S_ 32 0#32)))
      (addi (sources ei) (broadcastInDim S850000 ![] bcast_S_S850000 (constantI S_ 32 50000#32)))
      (sources ei))

/-- The targets as a column of row numbers. -/
def dstCol (ei : Arr S2x800000 .i32) : Arr S850000x1 .i32 :=
  broadcastInDim S850000x1 ![0] bcast_S850000_S850000x1_0 (targets ei)

/-- Message passing at width 128: row `src e` of `A` is added into row `dst e`, over all edges and self loops, from zero. -/
def agg128 (ei : Arr S2x800000 .i32) (A : Arr S50000x128 .bf16) : Arr S50000x128 .f32 :=
  Host.scatterAdd scatter_S50000x128_S850000x1_S850000x128_1_0_0_1
    (broadcastInDim S50000x128 ![] bcast_S_S50000x128 (constant (F := Ideal) S_ .f32 0x00000000#32))
    (dstCol ei)
    (extf .f32 (Host.gather gather_S50000x128_S850000x1_S850000x128_1_0_n_n_0_1_1128 A (srcCol ei)) bitsLt_bf16_f32)

/-- Message passing at width 64. -/
def agg64 (ei : Arr S2x800000 .i32) (A : Arr S50000x64 .bf16) : Arr S50000x64 .f32 :=
  Host.scatterAdd scatter_S50000x64_S850000x1_S850000x64_1_0_0_1
    (broadcastInDim S50000x64 ![] bcast_S_S50000x64 (constant (F := Ideal) S_ .f32 0x00000000#32))
    (dstCol ei)
    (extf .f32 (Host.gather gather_S50000x64_S850000x1_S850000x64_1_0_n_n_0_1_164 A (srcCol ei)) bitsLt_bf16_f32)

/-! ## The layers, nested -/

/-- The first layer's rows before message passing: the node features times the first weights, each row scaled. -/
def ts1 (x : Arr S50000x128 .f32) (ei : Arr S2x800000 .i32) (W1 : Arr S128x128 .f32) : Arr S50000x128 .bf16 :=
  scaledProduct0 x W1 (d2 ei)

/-- The second layer's rows before message passing: the first layer finished (passed, scaled, bias, positive part),
    times the second weights, each row scaled. -/
def ts2 (x : Arr S50000x128 .f32) (ei : Arr S2x800000 .i32) (W1 : Arr S128x128 .f32) (b1 : Arr S128 .f32)
    (Wh : Arr S128x128 .f32) : Arr S50000x128 .bf16 :=
  scaledReluProduct1 (agg128 ei (ts1 x ei W1)) (d2 ei) (shapeCast S1x128 b1 shapeCasts_S128_S1x128) Wh

/-- The third layer's rows before message passing. -/
def ts3 (x : Arr S50000x128 .f32) (ei : Arr S2x800000 .i32) (W1 : Arr S128x128 .f32) (b1 : Arr S128 .f32)
    (Wh : Arr S128x128 .f32) (bh : Arr S128 .f32) (W2 : Arr S128x64 .f32) : Arr S50000x64 .bf16 :=
  scaledReluProduct2 (agg128 ei (ts2 x ei W1 b1 Wh)) (d2 ei) (shapeCast S1x128 bh shapeCasts_S128_S1x128) W2

/-- The node embeddings: the third layer finished (passed, scaled, bias; no positive part). -/
def hK (x : Arr S50000x128 .f32) (ei : Arr S2x800000 .i32) (W1 : Arr S128x128 .f32) (b1 : Arr S128 .f32)
    (Wh : Arr S128x128 .f32) (bh : Arr S128 .f32) (W2 : Arr S128x64 .f32) (b2 : Arr S64 .f32) : Arr S50000x64 .f32 :=
  scaledBiased3 (agg64 ei (ts3 x ei W1 b1 Wh bh W2)) (d2 ei) (shapeCast S1x64 b2 shapeCasts_S64_S1x64)

/-- The decoded column: each embedding times the output column, plus the output bias. -/
def outK (x : Arr S50000x128 .f32) (ei : Arr S2x800000 .i32) (W1 : Arr S128x128 .f32) (b1 : Arr S128 .f32)
    (Wh : Arr S128x128 .f32) (bh : Arr S128 .f32) (W2 : Arr S128x64 .f32) (b2 : Arr S64 .f32)
    (Wout : Arr S64x1 .f32) (bout : Arr S1 .f32) : Arr S50000x1 .f32 :=
  decoded3 (agg64 ei (ts3 x ei W1 b1 Wh bh W2)) (d2 ei) (shapeCast S1x64 b2 shapeCasts_S64_S1x64) Wout
    (shapeCast S1x1 bout shapeCasts_S1_S1x1)

end Cert.KernelIdeal.StageValue

end
-- ==== Proof.KernelStages.lean ====
/-
  The kernel's two result arrays as one nest of pure terms of the launch memory.

  The run is a fold through ten segments: host stretches and four regions. A stretch rewrites its own results' buffers
  with pure operations of what the earlier buffers hold; a region rewrites its output array with one function of its
  input arrays (the regions' closed forms) and leaves every other buffer alone. Reading the fold backwards from the two
  result arrays, each buffer a region reads is either the previous stretch's result — rows passed along the edges, a
  bias turned into a row — or a buffer nothing has written since an early stretch made it (the sources, the targets, the
  column of factors) or since the launch (the weights and biases). Composing these equations boundary by boundary gives
  the node embeddings and the decoded column as the nest of the three layers and the decoder over the launch arrays.

  Every stretch is first read from ANY contents, so that the fold stays folded while one stretch is computed.
-/
import proofs.«106710_j9405978378565_2_alg».proof.Proof.Gen.KernelIdeal.Frame
import proofs.«106710_j9405978378565_2_alg».proof.Proof.RegionArrays
import proofs.«106710_j9405978378565_2_alg».proof.Proof.KernelTerms

set_option maxRecDepth 16384

noncomputable section

namespace Cert.KernelIdeal.StageValue

open Cert.KernelIdeal Cert.KernelIdeal.Gen Idealize.ShloMosaic Idealize.ShloMosaic.TcCoe Idealize.SL.Sem
open Idealize.ShloMosaic.Pipeline (Dat)
open Cert.KernelIdeal.RegionValue

variable (m : (ℓ : Loc nD τ sig) → Buf (Elt Ideal) ℓ) (ρ : Dev nD → PrngReg)

/-! ## Message passing, over the two node lists -/

/-- Message passing written over columns of row numbers, at width 128. -/
def pass128 (dst src : Arr S850000 .i32) (A : Arr S50000x128 .bf16) : Arr S50000x128 .f32 :=
  Host.scatterAdd scatter_S50000x128_S850000x1_S850000x128_1_0_0_1
    (broadcastInDim S50000x128 ![] bcast_S_S50000x128 (constant (F := Ideal) S_ .f32 0x00000000#32))
    (broadcastInDim S850000x1 ![0] bcast_S850000_S850000x1_0 dst)
    (extf .f32 (Host.gather gather_S50000x128_S850000x1_S850000x128_1_0_n_n_0_1_1128 A
      (broadcastInDim S850000x1 ![0] bcast_S850000_S850000x1_0
        (select (cmpi .slt src (broadcastInDim S850000 ![] bcast_S_S850000 (constantI S_ 32 0#32)))
          (addi src (broadcastInDim S850000 ![] bcast_S_S850000 (constantI S_ 32 50000#32))) src))) bitsLt_bf16_f32)

/-- The same at width 64. -/
def pass64 (dst src : Arr S850000 .i32) (A : Arr S50000x64 .bf16) : Arr S50000x64 .f32 :=
  Host.scatterAdd scatter_S50000x64_S850000x1_S850000x64_1_0_0_1
    (broadcastInDim S50000x64 ![] bcast_S_S50000x64 (constant (F := Ideal) S_ .f32 0x00000000#32))
    (broadcastInDim S850000x1 ![0] bcast_S850000_S850000x1_0 dst)
    (extf .f32 (Host.gather gather_S50000x64_S850000x1_S850000x64_1_0_n_n_0_1_164 A
      (broadcastInDim S850000x1 ![0] bcast_S850000_S850000x1_0
        (select (cmpi .slt src (broadcastInDim S850000 ![] bcast_S_S850000 (constantI S_ 32 0#32)))
          (addi src (broadcastInDim S850000 ![] bcast_S_S850000 (constantI S_ 32 50000#32))) src))) bitsLt_bf16_f32)

theorem pass128_eq (ei : Arr S2x800000 .i32) (A : Arr S50000x128 .bf16) : pass128 (targets ei) (sources ei) A = agg128 ei A := rfl
theorem pass64_eq (ei : Arr S2x800000 .i32) (A : Arr S50000x64 .bf16) : pass64 (targets ei) (sources ei) A = agg64 ei A := rfl

/-! ## Each host stretch, from ANY contents `X`: what it leaves in the buffers the regions read -/

section Stretches
variable (X : Valuation τ sig (Elt Ideal))

theorem stretch0_sources : StableHlo.after hostOps0 X (Proc.devRef .tc main_v3) = sources (X (Proc.devRef .tc main_arg1)) := by
  after_results <;> rfl
theorem stretch0_targets : StableHlo.after hostOps0 X (Proc.devRef .tc main_v6) = targets (X (Proc.devRef .tc main_arg1)) := by
  after_results <;> rfl
theorem stretch0_hasEdge : StableHlo.after hostOps0 X (Proc.devRef .tc main_v12) = hasEdge (X (Proc.devRef .tc main_arg1)) := by
  after_results <;> rfl
theorem stretch0_rsqrt : StableHlo.after hostOps0 X (Proc.devRef .tc main_v15) = rsqrtDegree (X (Proc.devRef .tc main_arg1)) := by
  after_results <;> rfl
theorem stretch0_zero : StableHlo.after hostOps0 X (Proc.devRef .tc main_cst_3) = constant (F := Ideal) S_ .f32 0x00000000#32 := by
  after_results <;> rfl

/-- The second stretch chooses, node by node, between the reciprocal root and zero. -/
theorem stretch0_1_dis : StableHlo.after hostOps0_1 X (Proc.devRef .tc main_v16)
    = select (X (Proc.devRef .tc main_v12)) (X (Proc.devRef .tc main_v15))
        (broadcastInDim S50000 ![] bcast_S_S50000 (id (X (Proc.devRef .tc main_cst_3)))) := by
  after_results <;> rfl

/-- The third stretch turns the factors into a column. -/
theorem stretch0_2_column : StableHlo.after hostOps0_2 X (Proc.devRef .tc main_v17)
    = shapeCast S50000x1 (X (Proc.devRef .tc main_v16)) shapeCasts_S50000_S50000x1 := by
  after_results <;> rfl

theorem stretch1_agg : StableHlo.after hostOps1 X (Proc.devRef .tc main_v29)
    = pass128 (X (Proc.devRef .tc main_v6)) (X (Proc.devRef .tc main_v3)) (X (Proc.devRef .tc main_v18)) := by
  after_results <;> rfl
theorem stretch1_bias : StableHlo.after hostOps1 X (Proc.devRef .tc main_v30)
    = shapeCast S1x128 (X (Proc.devRef .tc main_arg3)) shapeCasts_S128_S1x128 := by
  after_results <;> rfl

theorem stretch2_agg : StableHlo.after hostOps2 X (Proc.devRef .tc main_v42)
    = pass128 (X (Proc.devRef .tc main_v6)) (X (Proc.devRef .tc main_v3)) (X (Proc.devRef .tc main_v31)) := by
  after_results <;> rfl
theorem stretch2_bias : StableHlo.after hostOps2 X (Proc.devRef .tc main_v43)
    = shapeCast S1x128 (X (Proc.devRef .tc main_arg5)) shapeCasts_S128_S1x128 := by
  after_results <;> rfl

theorem stretch3_agg : StableHlo.after hostOps3 X (Proc.devRef .tc main_v55)
    = pass64 (X (Proc.devRef .tc main_v6)) (X (Proc.devRef .tc main_v3)) (X (Proc.devRef .tc main_v44)) := by
  after_results_simp <;> rfl
theorem stretch3_bias : StableHlo.after hostOps3 X (Proc.devRef .tc main_v56)
    = shapeCast S1x64 (X (Proc.devRef .tc main_arg7)) shapeCasts_S64_S1x64 := by
  after_results <;> rfl
theorem stretch3_outBias : StableHlo.after hostOps3 X (Proc.devRef .tc main_v57)
    = shapeCast S1x1 (X (Proc.devRef .tc main_arg9)) shapeCasts_S1_S1x1 := by
  after_results <;> rfl

end Stretches

/-! ## Buffers nothing writes between two boundaries keep their contents

A host stretch rewrites only its own results' buffers; a region rewrites only its output arrays (an input array is read
through its window and ends as it was entered). -/

/-- A buffer that no operation of the stretch writes holds after it what it held before. -/
local macro "stretch_keeps " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- Where it is first read, the node features still holds its launch contents. -/
theorem launch_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by stretch_keeps hostOps0_2
    _ = W1 m ρ c (Proc.devRef .tc main_arg0) := by stretch_keeps hostOps0_1
    _ = W0 m ρ c (Proc.devRef .tc main_arg0) := by stretch_keeps hostOps0
    _ = m ((c : Thread nD τ).loc main_arg0) := rfl

/-- Where it is first read, the first weight matrix still holds its launch contents. -/
theorem launch_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by stretch_keeps hostOps0_2
    _ = W1 m ρ c (Proc.devRef .tc main_arg2) := by stretch_keeps hostOps0_1
    _ = W0 m ρ c (Proc.devRef .tc main_arg2) := by stretch_keeps hostOps0
    _ = m ((c : Thread nD τ).loc main_arg2) := rfl

/-- Where it is first read, the first bias still holds its launch contents. -/
theorem launch_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by stretch_keeps hostOps0_2
    _ = W1 m ρ c (Proc.devRef .tc main_arg3) := by stretch_keeps hostOps0_1
    _ = W0 m ρ c (Proc.devRef .tc main_arg3) := by stretch_keeps hostOps0
    _ = m ((c : Thread nD τ).loc main_arg3) := rfl

/-- Where it is first read, the second weight matrix still holds its launch contents. -/
theorem launch_arg4 (c : Dev nD) : W5 m ρ c (Proc.devRef .tc main_arg4) = m ((c : Thread nD τ).loc main_arg4) :=
  calc W5 m ρ c (Proc.devRef .tc main_arg4)
    _ = W4 m ρ c (Proc.devRef .tc main_arg4) := by stretch_keeps hostOps1
    _ = W3 m ρ c (Proc.devRef .tc main_arg4) := W4_of_ne m ρ c main_arg4 (by decide)
    _ = W2 m ρ c (Proc.devRef .tc main_arg4) := by stretch_keeps hostOps0_2
    _ = W1 m ρ c (Proc.devRef .tc main_arg4) := by stretch_keeps hostOps0_1
    _ = W0 m ρ c (Proc.devRef .tc main_arg4) := by stretch_keeps hostOps0
    _ = m ((c : Thread nD τ).loc main_arg4) := rfl

/-- Where it is first read, the second bias still holds its launch contents. -/
theorem launch_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by stretch_keeps hostOps1
    _ = W3 m ρ c (Proc.devRef .tc main_arg5) := W4_of_ne m ρ c main_arg5 (by decide)
    _ = W2 m ρ c (Proc.devRef .tc main_arg5) := by stretch_keeps hostOps0_2
    _ = W1 m ρ c (Proc.devRef .tc main_arg5) := by stretch_keeps hostOps0_1
    _ = W0 m ρ c (Proc.devRef .tc main_arg5) := by stretch_keeps hostOps0
    _ = m ((c : Thread nD τ).loc main_arg5) := rfl

/-- Where it is first read, the third weight matrix still holds its launch contents. -/
theorem launch_arg6 (c : Dev nD) : W7 m ρ c (Proc.devRef .tc main_arg6) = m ((c : Thread nD τ).loc main_arg6) :=
  calc W7 m ρ c (Proc.devRef .tc main_arg6)
    _ = W6 m ρ c (Proc.devRef .tc main_arg6) := by stretch_keeps hostOps2
    _ = W5 m ρ c (Proc.devRef .tc main_arg6) := W6_of_ne m ρ c main_arg6 (by decide)
    _ = W4 m ρ c (Proc.devRef .tc main_arg6) := by stretch_keeps hostOps1
    _ = W3 m ρ c (Proc.devRef .tc main_arg6) := W4_of_ne m ρ c main_arg6 (by decide)
    _ = W2 m ρ c (Proc.devRef .tc main_arg6) := by stretch_keeps hostOps0_2
    _ = W1 m ρ c (Proc.devRef .tc main_arg6) := by stretch_keeps hostOps0_1
    _ = W0 m ρ c (Proc.devRef .tc main_arg6) := by stretch_keeps hostOps0
    _ = m ((c : Thread nD τ).loc main_arg6) := rfl

/-- Where it is first read, the third bias still holds its launch contents. -/
theorem launch_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := by stretch_keeps hostOps2
    _ = W5 m ρ c (Proc.devRef .tc main_arg7) := W6_of_ne m ρ c main_arg7 (by decide)
    _ = W4 m ρ c (Proc.devRef .tc main_arg7) := by stretch_keeps hostOps1
    _ = W3 m ρ c (Proc.devRef .tc main_arg7) := W4_of_ne m ρ c main_arg7 (by decide)
    _ = W2 m ρ c (Proc.devRef .tc main_arg7) := by stretch_keeps hostOps0_2
    _ = W1 m ρ c (Proc.devRef .tc main_arg7) := by stretch_keeps hostOps0_1
    _ = W0 m ρ c (Proc.devRef .tc main_arg7) := by stretch_keeps hostOps0
    _ = m ((c : Thread nD τ).loc main_arg7) := rfl

/-- Where it is first read, the output bias still holds its launch contents. -/
theorem launch_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := by stretch_keeps hostOps2
    _ = W5 m ρ c (Proc.devRef .tc main_arg9) := W6_of_ne m ρ c main_arg9 (by decide)
    _ = W4 m ρ c (Proc.devRef .tc main_arg9) := by stretch_keeps hostOps1
    _ = W3 m ρ c (Proc.devRef .tc main_arg9) := W4_of_ne m ρ c main_arg9 (by decide)
    _ = W2 m ρ c (Proc.devRef .tc main_arg9) := by stretch_keeps hostOps0_2
    _ = W1 m ρ c (Proc.devRef .tc main_arg9) := by stretch_keeps hostOps0_1
    _ = W0 m ρ c (Proc.devRef .tc main_arg9) := by stretch_keeps hostOps0
    _ = m ((c : Thread nD τ).loc main_arg9) := rfl

/-- Where it is first read, the output column still holds its launch contents. -/
theorem launch_arg8 (c : Dev nD) : W9 m ρ c (Proc.devRef .tc main_arg8) = m ((c : Thread nD τ).loc main_arg8) :=
  calc W9 m ρ c (Proc.devRef .tc main_arg8)
    _ = W8 m ρ c (Proc.devRef .tc main_arg8) := by stretch_keeps hostOps3
    _ = W7 m ρ c (Proc.devRef .tc main_arg8) := W8_of_ne m ρ c main_arg8 (by decide)
    _ = W6 m ρ c (Proc.devRef .tc main_arg8) := by stretch_keeps hostOps2
    _ = W5 m ρ c (Proc.devRef .tc main_arg8) := W6_of_ne m ρ c main_arg8 (by decide)
    _ = W4 m ρ c (Proc.devRef .tc main_arg8) := by stretch_keeps hostOps1
    _ = W3 m ρ c (Proc.devRef .tc main_arg8) := W4_of_ne m ρ c main_arg8 (by decide)
    _ = W2 m ρ c (Proc.devRef .tc main_arg8) := by stretch_keeps hostOps0_2
    _ = W1 m ρ c (Proc.devRef .tc main_arg8) := by stretch_keeps hostOps0_1
    _ = W0 m ρ c (Proc.devRef .tc main_arg8) := by stretch_keeps hostOps0
    _ = m ((c : Thread nD τ).loc main_arg8) := rfl

/-- The sources are not written again before the first message passing. -/
theorem keep_sources_4 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by stretch_keeps hostOps0_2
    _ = W1 m ρ c (Proc.devRef .tc main_v3) := by stretch_keeps hostOps0_1

/-- Nor before the second. -/
theorem keep_sources_6 (c : Dev nD) : W6 m ρ c (Proc.devRef .tc main_v3) = W4 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by stretch_keeps hostOps1

/-- Nor before the third. -/
theorem keep_sources_8 (c : Dev nD) : W8 m ρ c (Proc.devRef .tc main_v3) = W6 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by stretch_keeps hostOps2

/-- The targets are not written again before the first message passing. -/
theorem keep_targets_4 (c : Dev nD) : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := by stretch_keeps hostOps0_2
    _ = W1 m ρ c (Proc.devRef .tc main_v6) := by stretch_keeps hostOps0_1

/-- Nor before the second. -/
theorem keep_targets_6 (c : Dev nD) : W6 m ρ c (Proc.devRef .tc main_v6) = W4 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by stretch_keeps hostOps1

/-- Nor before the third. -/
theorem keep_targets_8 (c : Dev nD) : W8 m ρ c (Proc.devRef .tc main_v6) = W6 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := by stretch_keeps hostOps2

/-- The column of factors is read by every region and written by none. -/
theorem keep_column_5 (c : Dev nD) : W5 m ρ c (Proc.devRef .tc main_v17) = W3 m ρ c (Proc.devRef .tc main_v17) :=
  calc W5 m ρ c (Proc.devRef .tc main_v17)
    _ = W4 m ρ c (Proc.devRef .tc main_v17) := by stretch_keeps hostOps1
    _ = W3 m ρ c (Proc.devRef .tc main_v17) := (W4_arr m ρ c 2).trans (((dat0 (V3 m ρ) c).arrAt_in 2 rfl _).trans (A_eq0 (V3 m ρ) c 2))

/-- The same up to the third region. -/
theorem keep_column_7 (c : Dev nD) : W7 m ρ c (Proc.devRef .tc main_v17) = W5 m ρ c (Proc.devRef .tc main_v17) :=
  calc W7 m ρ c (Proc.devRef .tc main_v17)
    _ = W6 m ρ c (Proc.devRef .tc main_v17) := by stretch_keeps hostOps2
    _ = W5 m ρ c (Proc.devRef .tc main_v17) := (W6_arr m ρ c 1).trans (((dat1 (V5 m ρ) c).arrAt_in 1 rfl _).trans (A_eq1 (V5 m ρ) c 1))

/-- The same up to the last region. -/
theorem keep_column_9 (c : Dev nD) : W9 m ρ c (Proc.devRef .tc main_v17) = W7 m ρ c (Proc.devRef .tc main_v17) :=
  calc W9 m ρ c (Proc.devRef .tc main_v17)
    _ = W8 m ρ c (Proc.devRef .tc main_v17) := by stretch_keeps hostOps3
    _ = W7 m ρ c (Proc.devRef .tc main_v17) := (W8_arr m ρ c 1).trans (((dat2 (V7 m ρ) c).arrAt_in 1 rfl _).trans (A_eq2 (V7 m ρ) c 1))

/-! ## The contents at each boundary, as terms of the launch memory -/

section Boundaries
variable (c : Dev nD)

theorem at1_sources : W1 m ρ c (Proc.devRef .tc main_v3) = sources (m ((c : Thread nD τ).loc main_arg1)) := stretch0_sources (W0 m ρ c)
theorem at1_targets : W1 m ρ c (Proc.devRef .tc main_v6) = targets (m ((c : Thread nD τ).loc main_arg1)) := stretch0_targets (W0 m ρ c)
theorem at1_hasEdge : W1 m ρ c (Proc.devRef .tc main_v12) = hasEdge (m ((c : Thread nD τ).loc main_arg1)) := stretch0_hasEdge (W0 m ρ c)
theorem at1_rsqrt : W1 m ρ c (Proc.devRef .tc main_v15) = rsqrtDegree (m ((c : Thread nD τ).loc main_arg1)) := stretch0_rsqrt (W0 m ρ c)
theorem at1_zero : W1 m ρ c (Proc.devRef .tc main_cst_3) = constant (F := Ideal) S_ .f32 0x00000000#32 := stretch0_zero (W0 m ρ c)

/-- The factors, before the first region. -/
theorem at2_dis : W2 m ρ c (Proc.devRef .tc main_v16) = dis (m ((c : Thread nD τ).loc main_arg1)) := by
  refine (stretch0_1_dis (W1 m ρ c)).trans ?_
  rw [at1_hasEdge m ρ c, at1_rsqrt m ρ c, at1_zero m ρ c]; rfl

/-- The column of factors at the first region's entry. -/
theorem at3_column : W3 m ρ c (Proc.devRef .tc main_v17) = d2 (m ((c : Thread nD τ).loc main_arg1)) := by
  refine (stretch0_2_column (W2 m ρ c)).trans ?_
  rw [at2_dis m ρ c]; rfl

/-- After the first region: the first layer's rows. -/
theorem at4_layer1 : W4 m ρ c (Proc.devRef .tc main_v18) = ts1 (m ((c : Thread nD τ).loc main_arg0)) (m ((c : Thread nD τ).loc main_arg1)) (m ((c : Thread nD τ).loc main_arg2)) := by
  refine (W4_arr m ρ c 3).trans ((array0 (V3 m ρ) c).trans ?_)
  show scaledProduct0 (W3 m ρ c (Proc.devRef .tc main_arg0)) (W3 m ρ c (Proc.devRef .tc main_arg2)) (W3 m ρ c (Proc.devRef .tc main_v17)) = _
  rw [launch_arg0 m ρ c, launch_arg2 m ρ c, at3_column m ρ c]; rfl

theorem at4_sources : W4 m ρ c (Proc.devRef .tc main_v3) = sources (m ((c : Thread nD τ).loc main_arg1)) := (keep_sources_4 m ρ c).trans (at1_sources m ρ c)
theorem at4_targets : W4 m ρ c (Proc.devRef .tc main_v6) = targets (m ((c : Thread nD τ).loc main_arg1)) := (keep_targets_4 m ρ c).trans (at1_targets m ρ c)

/-- At the second region's entry: the first layer's rows passed along the edges, the first bias as a row, the column. -/
theorem at5_passed : W5 m ρ c (Proc.devRef .tc main_v29) = agg128 (m ((c : Thread nD τ).loc main_arg1)) (ts1 (m ((c : Thread nD τ).loc main_arg0)) (m ((c : Thread nD τ).loc main_arg1)) (m ((c : Thread nD τ).loc main_arg2))) := by
  refine (stretch1_agg (W4 m ρ c)).trans ?_
  rw [at4_targets m ρ c, at4_sources m ρ c, at4_layer1 m ρ c]
  exact pass128_eq _ _
theorem at5_bias : W5 m ρ c (Proc.devRef .tc main_v30) = shapeCast S1x128 (m ((c : Thread nD τ).loc main_arg3)) shapeCasts_S128_S1x128 := by
  refine (stretch1_bias (W4 m ρ c)).trans ?_
  rw [launch_arg3 m ρ c]
theorem at5_column : W5 m ρ c (Proc.devRef .tc main_v17) = d2 (m ((c : Thread nD τ).loc main_arg1)) := (keep_column_5 m ρ c).trans (at3_column m ρ c)

/-- After the second region: the second layer's rows. -/
theorem at6_layer2 : W6 m ρ c (Proc.devRef .tc main_v31) = ts2 (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 4).trans ((array1 (V5 m ρ) c).trans ?_)
  show scaledReluProduct1 (W5 m ρ c (Proc.devRef .tc main_v29)) (W5 m ρ c (Proc.devRef .tc main_v17)) (W5 m ρ c (Proc.devRef .tc main_v30)) (W5 m ρ c (Proc.devRef .tc main_arg4)) = _
  rw [at5_passed m ρ c, at5_column m ρ c, at5_bias m ρ c, launch_arg4 m ρ c]; rfl

theorem at6_sources : W6 m ρ c (Proc.devRef .tc main_v3) = sources (m ((c : Thread nD τ).loc main_arg1)) := (keep_sources_6 m ρ c).trans (at4_sources m ρ c)
theorem at6_targets : W6 m ρ c (Proc.devRef .tc main_v6) = targets (m ((c : Thread nD τ).loc main_arg1)) := (keep_targets_6 m ρ c).trans (at4_targets m ρ c)

/-- At the third region's entry. -/
theorem at7_passed : W7 m ρ c (Proc.devRef .tc main_v42) = agg128 (m ((c : Thread nD τ).loc main_arg1)) (ts2 (m ((c : Thread nD τ).loc main_arg0)) (m ((c : Thread nD τ).loc main_arg1)) (m ((c : Thread nD τ).loc main_arg2)) (m ((c : Thread nD τ).loc main_arg3)) (m ((c : Thread nD τ).loc main_arg4))) := by
  refine (stretch2_agg (W6 m ρ c)).trans ?_
  rw [at6_targets m ρ c, at6_sources m ρ c, at6_layer2 m ρ c]
  exact pass128_eq _ _
theorem at7_bias : W7 m ρ c (Proc.devRef .tc main_v43) = shapeCast S1x128 (m ((c : Thread nD τ).loc main_arg5)) shapeCasts_S128_S1x128 := by
  refine (stretch2_bias (W6 m ρ c)).trans ?_
  rw [launch_arg5 m ρ c]
theorem at7_column : W7 m ρ c (Proc.devRef .tc main_v17) = d2 (m ((c : Thread nD τ).loc main_arg1)) := (keep_column_7 m ρ c).trans (at5_column m ρ c)

/-- After the third region: the third layer's rows. -/
theorem at8_layer3 : W8 m ρ c (Proc.devRef .tc main_v44) = ts3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 4).trans ((array2 (V7 m ρ) c).trans ?_)
  show scaledReluProduct2 (W7 m ρ c (Proc.devRef .tc main_v42)) (W7 m ρ c (Proc.devRef .tc main_v17)) (W7 m ρ c (Proc.devRef .tc main_v43)) (W7 m ρ c (Proc.devRef .tc main_arg6)) = _
  rw [at7_passed m ρ c, at7_column m ρ c, at7_bias m ρ c, launch_arg6 m ρ c]; rfl

theorem at8_sources : W8 m ρ c (Proc.devRef .tc main_v3) = sources (m ((c : Thread nD τ).loc main_arg1)) := (keep_sources_8 m ρ c).trans (at6_sources m ρ c)
theorem at8_targets : W8 m ρ c (Proc.devRef .tc main_v6) = targets (m ((c : Thread nD τ).loc main_arg1)) := (keep_targets_8 m ρ c).trans (at6_targets m ρ c)

/-- At the last region's entry. -/
theorem at9_passed : W9 m ρ c (Proc.devRef .tc main_v55) = agg64 (m ((c : Thread nD τ).loc main_arg1)) (ts3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (stretch3_agg (W8 m ρ c)).trans ?_
  rw [at8_targets m ρ c, at8_sources m ρ c, at8_layer3 m ρ c]
  exact pass64_eq _ _
theorem at9_bias : W9 m ρ c (Proc.devRef .tc main_v56) = shapeCast S1x64 (m ((c : Thread nD τ).loc main_arg7)) shapeCasts_S64_S1x64 := by
  refine (stretch3_bias (W8 m ρ c)).trans ?_
  rw [launch_arg7 m ρ c]
theorem at9_outBias : W9 m ρ c (Proc.devRef .tc main_v57) = shapeCast S1x1 (m ((c : Thread nD τ).loc main_arg9)) shapeCasts_S1_S1x1 := by
  refine (stretch3_outBias (W8 m ρ c)).trans ?_
  rw [launch_arg9 m ρ c]
theorem at9_column : W9 m ρ c (Proc.devRef .tc main_v17) = d2 (m ((c : Thread nD τ).loc main_arg1)) := (keep_column_9 m ρ c).trans (at7_column m ρ c)

/-- THE NODE EMBEDDINGS after the run, as one nest of pure terms of the launch memory. -/
theorem result_h : W10 m ρ c (Proc.devRef .tc main_v58_0) = hK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 5).trans ((array3_5 (V9 m ρ) c).trans ?_)
  show scaledBiased3 (W9 m ρ c (Proc.devRef .tc main_v55)) (W9 m ρ c (Proc.devRef .tc main_v17)) (W9 m ρ c (Proc.devRef .tc main_v56)) = _
  rw [at9_passed m ρ c, at9_column m ρ c, at9_bias m ρ c]; rfl

/-- THE DECODED COLUMN after the run, as one nest of pure terms of the launch memory. -/
theorem result_out : W10 m ρ c (Proc.devRef .tc main_v58_1) = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W10_arr m ρ c 6).trans ((array3_6 (V9 m ρ) c).trans ?_)
  show decoded3 (W9 m ρ c (Proc.devRef .tc main_v55)) (W9 m ρ c (Proc.devRef .tc main_v17)) (W9 m ρ c (Proc.devRef .tc main_v56)) (W9 m ρ c (Proc.devRef .tc main_arg8)) (W9 m ρ c (Proc.devRef .tc main_v57)) = _
  rw [at9_passed m ρ c, at9_column m ρ c, at9_bias m ρ c, launch_arg8 m ρ c, at9_outBias m ρ c]; rfl

end Boundaries

end Cert.KernelIdeal.StageValue

end
-- ==== Proof.LibRowGather.lean ====
/-
  GENERAL LEMMA: a gather of whole rows — what `x[idx]` of a table `x : [N, D]` at an integer array `idx : [B]` is in a
  host program — read at an index given by coordinates.

  The start indices arrive as a column `[B, 1]`; the dimension numbers collapse the table's row axis, map the one
  start-index component to it, keep the column axis whole as the result's offset axis, and take slices `[1, D]`.
  Entry `(b, e)` of the result is the table's entry `(r, e)`, where the row `r` is the start index `idx[b, 0]` read as
  a signed integer and clamped into `[0, N − 1]`. The row depends on the start indices and on `N` only, not on the row
  length `D`: two tables with the same number of rows are gathered at the same rows.
-/
import Idealize.ShloMosaic.Lib.ValueIdx

noncomputable section

namespace Idealize.ShloMosaic.ValueIdx

open Idealize.ShloMosaic

section RowGather
variable {α : Type}

/-- The dimension numbers of a row gather, for a table `[N, D]`, start indices `[B, 1]` and a result `[B, D]`; their
    conditions `wf` are decided on a program's literal shapes. -/
abbrev rowGatherDims (N B D : Nat)
    (wf : GatherDims.WF ⟨2, ![N, D]⟩ ⟨2, ![B, 1]⟩ ⟨2, ![B, D]⟩ [1] [0] [] [0] [] 1 ![1, D]) :
    GatherDims ⟨2, ![N, D]⟩ ⟨2, ![B, 1]⟩ ⟨2, ![B, D]⟩ where
  offsetDims := [1]
  collapsedSliceDims := [0]
  operandBatchingDims := []
  startIndicesBatchingDims := []
  startIndexMap := [0]
  indexVectorDim := 1
  sliceSizes := ![1, D]
  wf := wf

/-- The row of the table that entry `b` of the result is taken from: the start index read signed, clamped into
    `[0, N − 1]`. -/
def gatherRow {B w : Nat} (N : Nat) (hN : 0 < N) (idx : IVec ⟨2, ![B, 1]⟩ w) (b : Fin B) : Fin N :=
  ⟨min (idx (ix2 b (0 : Fin 1))).toInt.toNat (N - 1), by omega⟩

/-- THE ROW GATHER READ AT `(b, e)`: the table at row `gatherRow N idx b`, column `e`. -/
theorem gather_row_apply {N B D w : Nat} (hN : 0 < N)
    (wf : GatherDims.WF ⟨2, ![N, D]⟩ ⟨2, ![B, 1]⟩ ⟨2, ![B, D]⟩ [1] [0] [] [0] [] 1 ![1, D])
    (x : (⟨2, ![N, D]⟩ : Shape).Idx → α) (idx : IVec ⟨2, ![B, 1]⟩ w) (b : Fin B) (e : Fin D) :
    Host.gather (rowGatherDims N B D wf) x idx (ix2 b e) = x (ix2 (gatherRow N hN idx b) e) := by
  unfold Host.gather
  congr 1
  -- the row axis: the one start-index component, clamped; nothing added to it
  have h0 : (rowGatherDims N B D wf).start (ix2 b e) idx (0 : Fin 2) + (rowGatherDims N B D wf).batchCoord (ix2 b e) (0 : Fin 2)
      + (rowGatherDims N B D wf).offCoord (ix2 b e) (0 : Fin 2) = min (idx (ix2 b (0 : Fin 1))).toInt.toNat (N - 1) := by
    rw [GatherDims.batchCoord_eq_zero _ _ _ List.not_mem_nil, Nat.add_zero,
      GatherDims.offCoord_eq_zero _ _ _
        (fun h => ((GatherDims.mem_sKept _ _).mp h).1 (List.mem_singleton.mpr rfl)), Nat.add_zero]
    unfold GatherDims.start
    rw [dif_pos (show (0 : Fin 2) ∈ (rowGatherDims N B D wf).startIndexMap from List.mem_singleton.mpr rfl)]
    have hsi : (rowGatherDims N B D wf).siIdx (ix2 b e) ⟨List.idxOf (0 : Fin 2) (rowGatherDims N B D wf).startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  -- the column axis: no start component, the result's own column as the offset
  have h1 : (rowGatherDims N B D wf).start (ix2 b e) idx (1 : Fin 2) + (rowGatherDims N B D wf).batchCoord (ix2 b e) (1 : Fin 2)
      + (rowGatherDims N B D wf).offCoord (ix2 b e) (1 : Fin 2) = e.val := by
    rw [GatherDims.batchCoord_eq_zero _ _ _ List.not_mem_nil, Nat.add_zero]
    have hs : (rowGatherDims N B D wf).start (ix2 b e) idx (1 : Fin 2) = 0 := by
      unfold GatherDims.start
      rw [dif_neg (show ¬ (1 : Fin 2) ∈ (rowGatherDims N B D wf).startIndexMap from
        fun h => Nat.one_ne_zero (congrArg Fin.val (List.mem_singleton.mp h)))]
    rw [hs, Nat.zero_add]
    rfl
  funext a
  refine Fin.ext ?_
  match a with
  | ⟨0, _⟩ => exact h0
  | ⟨1, _⟩ => exact h1

end RowGather

end Idealize.ShloMosaic.ValueIdx

end
-- ==== Proof.LibRowScatter.lean ====
/-
  GENERAL LEMMA: a scatter of whole rows — what a segment sum over rows, `out[idx[b], :] += upd[b, :]`, is in a host
  program — and where each update row lands.

  The operand is a table `[N, D]`, the scatter indices arrive as a column `[B, 1]`, the updates are `[B, D]`; the
  dimension numbers insert the table's row axis, map the one index component to it, and take the updates' column
  axis as the window. Update entry `(b, e)` lands in row `idx[b, 0]` read as a signed integer — NOT clamped: when that
  integer is outside `[0, N)` the update is dropped. So whenever an update entry lands at a table entry, that entry's
  row is the signed start index, and the start index is in range.
-/
import Idealize.ShloMosaic.Lib.ValueIdx

noncomputable section

namespace Idealize.ShloMosaic.ValueIdx

open Idealize.ShloMosaic

section RowScatter

/-- The dimension numbers of a row scatter, for a table `[N, D]`, scatter indices `[B, 1]` and updates `[B, D]`;
    their conditions `wf` are decided on a program's literal shapes. -/
abbrev rowScatterDims (N B D : Nat)
    (wf : ScatterDims.WF ⟨2, ![N, D]⟩ ⟨2, ![B, 1]⟩ ⟨2, ![B, D]⟩ [1] [0] [0] 1) :
    ScatterDims ⟨2, ![N, D]⟩ ⟨2, ![B, 1]⟩ ⟨2, ![B, D]⟩ where
  updateWindowDims := [1]
  insertedWindowDims := [0]
  scatterDimsToOperandDims := [0]
  indexVectorDim := 1
  wf := wf

/-- WHERE A ROW SCATTER'S UPDATE LANDS: if update entry `j` lands at table entry `i`, then the start index of `j`'s
    row, read signed, is in `[0, N)` and is `i`'s row. -/
theorem row_scatter_lands {N B D w : Nat}
    (wf : ScatterDims.WF ⟨2, ![N, D]⟩ ⟨2, ![B, 1]⟩ ⟨2, ![B, D]⟩ [1] [0] [0] 1)
    (idx : IVec ⟨2, ![B, 1]⟩ w) (j : (⟨2, ![B, D]⟩ : Shape).Idx) (i : (⟨2, ![N, D]⟩ : Shape).Idx)
    (h : (rowScatterDims N B D wf).resultIdx? j idx = some i) :
    0 ≤ (idx (ix2 (j 0) (0 : Fin 1))).toInt ∧ (idx (ix2 (j 0) (0 : Fin 1))).toInt < N
      ∧ ((i 0).val : Int) = (idx (ix2 (j 0) (0 : Fin 1))).toInt := by
  unfold ScatterDims.resultIdx? at h
  split at h
  · rename_i hall
    have hi := Option.some.inj h
    -- the row axis: the start is the one index component, the window adds nothing
    have hstart : (rowScatterDims N B D wf).start j idx (0 : Fin 2) = (idx (ix2 (j 0) (0 : Fin 1))).toInt := by
      unfold ScatterDims.start
      rw [dif_pos (show (0 : Fin 2) ∈ (rowScatterDims N B D wf).scatterDimsToOperandDims from List.mem_singleton.mpr rfl)]
      have hsi : (rowScatterDims N B D wf).siIdx j ⟨List.idxOf (0 : Fin 2) (rowScatterDims N B D wf).scatterDimsToOperandDims,
          List.idxOf_lt_length_iff.2 (List.mem_singleton.mpr rfl)⟩ = ix2 (j 0) (0 : Fin 1) := by
        funext c; refine Fin.ext ?_
        match c with
        | ⟨0, _⟩ => rfl
        | ⟨1, _⟩ => rfl
      rw [hsi]
      rfl
    have hwin : (rowScatterDims N B D wf).window j (0 : Fin 2) = 0 := by
      unfold ScatterDims.window
      rw [dif_neg]
      intro hm
      have : (0 : Fin 2) ∈ ([1] : List (Fin 2)) := hm
      exact absurd (List.mem_singleton.mp this) (by decide)
    have h0 := hall (0 : Fin 2)
    rw [hstart, hwin] at h0
    have hsz : ((⟨2, ![N, D]⟩ : Shape).size (0 : Fin 2)) = N := rfl
    rw [hsz] at h0
    refine ⟨by omega, by omega, ?_⟩
    have hv : (i 0).val = ((rowScatterDims N B D wf).start j idx (0 : Fin 2) + ((rowScatterDims N B D wf).window j (0 : Fin 2) : Int)).toNat := by
      rw [← hi]
    rw [hv, hstart, hwin]
    omega
  · exact absurd h (by simp)

end RowScatter

end Idealize.ShloMosaic.ValueIdx

end
-- ==== Proof.LibScaledSum.lean ====
/-
  GENERAL LEMMAS on the extended reals: a finite sum multiplied by a factor that is a nonnegative real.

  Multiplication does not distribute over addition on the extended reals in general (an infinite factor against
  summands of both signs), but it does when the factor is nonnegative and not +∞. So a sum of products that share
  such a factor is that factor times the sum of the remaining products — the step that lets a per-destination scale
  be taken out of, or pushed into, a sum over the messages arriving at that destination.
  Also: the reciprocal square root of anything at least 1 is a nonnegative real.
-/
import Idealize.ShloMosaic.PureOps.Ideal

noncomputable section

namespace Idealize.ShloMosaic.ScaledSum

open Idealize.ShloMosaic

/-- A factor that is nonnegative and not +∞ multiplies a finite sum term by term. -/
theorem sum_mul {ι : Type} (A : Finset ι) (a : ι → EReal) {d : EReal} (h0 : 0 ≤ d) (ht : d ≠ ⊤) :
    (∑ j ∈ A, a j) * d = ∑ j ∈ A, a j * d := by
  classical
  induction A using Finset.induction_on with
  | empty => simp
  | insert x s hx ih =>
    rw [Finset.sum_insert hx, Finset.sum_insert hx, EReal.right_distrib_of_nonneg_of_ne_top h0 ht, ih]

/-- THE SCALED MESSAGE SUM. Messages `t j` arrive at one destination from the set `A`, each already scaled at its
    source by `ds j`; scaling their sum (from zero) by the destination's factor `d` is the sum (from zero) of the
    messages each scaled by the product `ds j * dd j`, whenever `dd j` is `d` for every message that arrives. -/
theorem scaled_sum {ι : Type} (A : Finset ι) (t ds dd : ι → EReal) {d : EReal} (h0 : 0 ≤ d) (ht : d ≠ ⊤)
    (hdd : ∀ j ∈ A, dd j = d) :
    (0 + ∑ j ∈ A, t j * ds j) * d = 0 + ∑ j ∈ A, t j * (ds j * dd j) := by
  rw [zero_add, zero_add, sum_mul A _ h0 ht]
  refine Finset.sum_congr rfl fun j hj => ?_
  rw [hdd j hj, mul_assoc]

/-- The reciprocal square root of anything at least 1 is nonnegative and not +∞: at +∞ it is 0, and at a real
    `r ≥ 1` it is the real `1 / √r`. -/
theorem rsqrt_of_one_le {z : EReal} (hz : 1 ≤ z) : 0 ≤ Ideal.rsqrt z ∧ Ideal.rsqrt z ≠ ⊤ := by
  induction z using EReal.rec with
  | bot => exact absurd (le_bot_iff.mp hz) (by rw [← EReal.coe_one]; exact EReal.coe_ne_bot 1)
  | top =>
    rw [Ideal.rsqrt_top]
    exact ⟨le_refl _, EReal.zero_ne_top⟩
  | coe r =>
    have hr : (1 : ℝ) ≤ r := by exact_mod_cast hz
    have hpos : (0 : ℝ) < r := lt_of_lt_of_le one_pos hr
    rw [Ideal.rsqrt_coe, if_neg (not_lt.mpr hpos.le), if_neg hpos.ne']
    exact ⟨by exact_mod_cast inv_nonneg.mpr (Real.sqrt_nonneg _), EReal.coe_ne_top _⟩

/-- The reciprocal square root of the larger of `y` and 1 is nonnegative and not +∞, whatever `y` is. -/
theorem rsqrt_max_one (y : EReal) : 0 ≤ Ideal.rsqrt (max y 1) ∧ Ideal.rsqrt (max y 1) ≠ ⊤ :=
  rsqrt_of_one_le (le_max_right y 1)

end Idealize.ShloMosaic.ScaledSum

end
-- ==== Proof.RefLayers.lean ====
/-
  The reference program's stages read at an index.

  The reference is a three-layer graph convolution over 50000 nodes and 850000 messages (800000 edges and one self
  loop per node). Each layer multiplies the node features by a weight matrix, sends every message's source row scaled
  by the product of the reciprocal square roots of the two end nodes' degrees, sums the messages arriving at each
  node, and adds a bias. This module reads those stages index by index:

  * the degree scale `dis = select (deg > 0) (rsqrt (max deg 1)) 0` is a nonnegative real at every node, whatever
    the degree is;
  * a message that lands at a table entry has that entry's row as its (normalised, clamped) destination row;
  * each layer's output entry `(r, f)` is zero plus the sum, over the messages landing at `(r, f)`, of the matmul
    stage at the message's source row times the two degree scales, plus the bias at `f`;
  * the matmul stages are plain sums over the contraction index, the two rectifiers are `max · 0`, and the decoder
    is a sum over 64 columns plus its bias.
-/
import proofs.«106710_j9405978378565_2_alg».proof.Proof.RefReadP
import proofs.«106710_j9405978378565_2_alg».proof.Proof.LibRowGather
import proofs.«106710_j9405978378565_2_alg».proof.Proof.LibRowScatter
import proofs.«106710_j9405978378565_2_alg».proof.Proof.LibScaledSum
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## A gather from a flat table -/

section FlatGather
variable {α : Type}

/-- The dimension numbers of a gather from a flat table `[N]` at start indices `[B, 1]` into a result `[B]`: the
    table's one axis is collapsed, the one start-index component is mapped to it, and the slice is one element. -/
abbrev flatGatherDims (N B : Nat)
    (wf : GatherDims.WF ⟨1, ![N]⟩ ⟨2, ![B, 1]⟩ ⟨1, ![B]⟩ [] [0] [] [0] [] 1 ![1]) :
    GatherDims ⟨1, ![N]⟩ ⟨2, ![B, 1]⟩ ⟨1, ![B]⟩ where
  offsetDims := []
  collapsedSliceDims := [0]
  operandBatchingDims := []
  startIndicesBatchingDims := []
  startIndexMap := [0]
  indexVectorDim := 1
  sliceSizes := ![1]
  wf := wf

/-- The flat gather read at `b`: the table at the start index `idx[b, 0]`, read signed and clamped into
    `[0, N − 1]` — the same row `gatherRow` names for a gather of whole rows. -/
theorem gather_flat_apply {N B w : Nat} (hN : 0 < N)
    (wf : GatherDims.WF ⟨1, ![N]⟩ ⟨2, ![B, 1]⟩ ⟨1, ![B]⟩ [] [0] [] [0] [] 1 ![1])
    (x : (⟨1, ![N]⟩ : Shape).Idx → α) (idx : IVec ⟨2, ![B, 1]⟩ w) (b : Fin B) :
    Host.gather (flatGatherDims N B wf) x idx (ix1 b) = x (ix1 (gatherRow N hN idx b)) := by
  unfold Host.gather
  congr 1
  funext a
  obtain rfl : a = 0 := Subsingleton.elim _ _
  refine Fin.ext ?_
  show (flatGatherDims N B wf).start (ix1 b) idx 0 + (flatGatherDims N B wf).batchCoord (ix1 b) 0
    + (flatGatherDims N B wf).offCoord (ix1 b) 0 = min (idx (ix2 b (0 : Fin 1))).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N B wf).startIndexMap from List.mem_singleton.mpr rfl)]
  have hsi : (flatGatherDims N B wf).siIdx (ix1 b) ⟨List.idxOf (0 : Fin 1) (flatGatherDims N B wf).startIndexMap,
      List.idxOf_lt_length_iff.2 (List.mem_singleton.mpr rfl)⟩ = ix2 b (0 : Fin 1) := by
    funext c; refine Fin.ext ?_
    match c with
    | ⟨0, _⟩ => rfl
    | ⟨1, _⟩ => rfl
  rw [hsi]
  rfl

end FlatGather

/-! ## The degree scale -/

/-- The word `0x3F800000` is the real number one. -/
theorem ofBits_one_f32 : Ideal.ofBits .f32 0x3F800000#32 = 1 := by
  simp [Ideal.ofBits, Ideal.ieee]
  rw [← EReal.coe_mul, ← EReal.coe_one]
  congr 1
  norm_num

/-- The degree scale is a nonnegative real at every node: where the degree is positive it is the reciprocal square
    root of something at least one, elsewhere it is zero. The degree itself is not looked at. -/
theorem dis_nonneg (x1 : (⟨S2x800000, .i32⟩ : BufTy).Contents (Elt Ideal)) (k : S50000.Idx) :
    0 ≤ ReadP.val_main_v16 (F := Ideal) x1 k ∧ ReadP.val_main_v16 (F := Ideal) x1 k ≠ ⊤ := by
  rw [ReadP.val_main_v16_apply]
  unfold Scalar.select
  split
  · rw [ReadP.val_main_v15_apply, ReadP.val_main_v14_apply, ReadP.val_main_v13_apply, ReadP.val_main_cst_2_apply,
      Ideal.hostUnary_rsqrt_def, Ideal.maximumf_def, Ideal.ofBits_def, ofBits_one_f32]
    exact ScaledSum.rsqrt_max_one _
  · rw [ReadP.val_main_call0_v1_apply, ReadP.val_main_call0_v0_apply, ReadP.val_main_cst_3_apply, Ideal.ofBits_def,
      Ideal.ofBits_zero_f32]
    exact ⟨le_refl _, EReal.zero_ne_top⟩

/-! ## Where a message lands -/

/-- There is at least one node. -/
theorem pos50000 : 0 < 50000 := Nat.succ_pos _

section Landing
variable (x1 : (⟨S2x800000, .i32⟩ : BufTy).Contents (Elt Ideal))

/-- Where the raw destination index of message `b` is not negative, the normalised destination column
    `select (dst < 0) (dst + 50000) dst` holds the raw index itself. -/
theorem dstNorm_of_nonneg (b : Fin 850000)
    (h0 : 0 ≤ (ReadP.val_main_v44 (F := Ideal) x1 (ix2 b (0 : Fin 1))).toInt) :
    ReadP.val_main_v29 (F := Ideal) x1 (ix2 b (0 : Fin 1)) = ReadP.val_main_v44 (F := Ideal) x1 (ix2 b (0 : Fin 1)) := by
  rw [ReadP.val_main_v44_apply] at h0 ⊢
  rw [ReadP.val_main_v29_apply, ReadP.val_main_v28_apply, ReadP.val_main_v25_apply, ReadP.val_main_v24_apply,
    ReadP.val_main_c_5_apply]
  show Scalar.select (IntOp.cmpi .slt (ReadP.val_main_v6 (F := Ideal) x1 (ReadP.idx_main_v44 (ix2 b (0 : Fin 1)))) 0#32) _
      (ReadP.val_main_v6 (F := Ideal) x1 (ReadP.idx_main_v44 (ix2 b (0 : Fin 1)))) = _
  generalize ReadP.val_main_v6 (F := Ideal) x1 (ReadP.idx_main_v44 (ix2 b (0 : Fin 1))) = t at h0 ⊢
  have hlt : t.slt 0#32 = false := by
    simp only [BitVec.slt, BitVec.toInt_zero, decide_eq_false_iff_not, Int.not_lt]
    exact h0
  show (if BitVec.ofBool (t.slt 0#32) = 1 then _ else _) = _
  rw [hlt]
  rfl

/-- A message entry `j` that lands at table entry `i` of a 128-column table has `i`'s row as its normalised and
    clamped destination row: the raw destination index is then in range, so neither the normalisation nor the
    clamp changes it. -/
theorem lands_row128 (j : S850000x128.Idx) (i : S50000x128.Idx)
    (h : scatter_S50000x128_S850000x1_S850000x128_1_0_0_1.resultIdx? j (ReadP.val_main_v44 (F := Ideal) x1) = some i) :
    gatherRow 50000 pos50000 (ReadP.val_main_v29 (F := Ideal) x1) (j 0) = i 0 := by
  obtain ⟨h0, h1, h2⟩ := row_scatter_lands (N := 50000) (B := 850000) (D := 128)
    Facts₀.scatter_S50000x128_S850000x1_S850000x128_1_0_0_1_wf (ReadP.val_main_v44 (F := Ideal) x1) j i h
  have e := congrArg BitVec.toInt (dstNorm_of_nonneg x1 (j 0) h0)
  refine Fin.ext ?_
  show min (ReadP.val_main_v29 (F := Ideal) x1 (ix2 (j 0) (0 : Fin 1))).toInt.toNat (50000 - 1) = (i 0).val
  omega

/-- The same for a 64-column table. -/
theorem lands_row64 (j : S850000x64.Idx) (i : S50000x64.Idx)
    (h : scatter_S50000x64_S850000x1_S850000x64_1_0_0_1.resultIdx? j (ReadP.val_main_v44 (F := Ideal) x1) = some i) :
    gatherRow 50000 pos50000 (ReadP.val_main_v29 (F := Ideal) x1) (j 0) = i 0 := by
  obtain ⟨h0, h1, h2⟩ := row_scatter_lands (N := 50000) (B := 850000) (D := 64)
    Facts₀.scatter_S50000x64_S850000x1_S850000x64_1_0_0_1_wf (ReadP.val_main_v44 (F := Ideal) x1) j i h
  have e := congrArg BitVec.toInt (dstNorm_of_nonneg x1 (j 0) h0)
  refine Fin.ext ?_
  show min (ReadP.val_main_v29 (F := Ideal) x1 (ix2 (j 0) (0 : Fin 1))).toInt.toNat (50000 - 1) = (i 0).val
  omega

/-- The weight of message `b`: the degree scale at its (normalised, clamped) source row times the degree scale
    at its destination row. -/
theorem weight_apply (b : Fin 850000) :
    ReadP.val_main_v31 (F := Ideal) x1 (ix1 b) =
      ReadP.val_main_v16 (F := Ideal) x1 (ix1 (gatherRow 50000 pos50000 (ReadP.val_main_v22 (F := Ideal) x1) b))
        * ReadP.val_main_v16 (F := Ideal) x1 (ix1 (gatherRow 50000 pos50000 (ReadP.val_main_v29 (F := Ideal) x1) b)) := by
  have e23 : ReadP.val_main_v23 (F := Ideal) x1 (ix1 b)
      = ReadP.val_main_v16 (F := Ideal) x1 (ix1 (gatherRow 50000 pos50000 (ReadP.val_main_v22 (F := Ideal) x1) b)) :=
    gather_flat_apply pos50000 Facts₀.gather_S50000_S850000x1_S850000_n_0_n_n_0_1_1_wf
      (ReadP.val_main_v16 (F := Ideal) x1) (ReadP.val_main_v22 (F := Ideal) x1) b
  have e30 : ReadP.val_main_v30 (F := Ideal) x1 (ix1 b)
      = ReadP.val_main_v16 (F := Ideal) x1 (ix1 (gatherRow 50000 pos50000 (ReadP.val_main_v29 (F := Ideal) x1) b)) :=
    gather_flat_apply pos50000 Facts₀.gather_S50000_S850000x1_S850000_n_0_n_n_0_1_1_wf
      (ReadP.val_main_v16 (F := Ideal) x1) (ReadP.val_main_v29 (F := Ideal) x1) b
  rw [ReadP.val_main_v31_apply, e23, e30]
  rfl

end Landing

/-! ## The accumulating scatter at an index -/

/-- The host's accumulating scatter at the exact values, read at a table entry `i`: the operand there plus the sum
    of the update entries that land at `i`. -/
theorem scatterAdd_apply {s si u : Shape} {w : Nat} (d : ScatterDims s si u) (x : FVec Ideal s .f32) (idx : IVec si w)
    (upd : FVec Ideal u .f32) (i : s.Idx) :
    Host.scatterAdd d x idx upd i = x i + ∑ j ∈ Finset.univ.filter (fun j => d.resultIdx? j idx = some i), upd j := rfl

/-! ## The first layer -/

section Layer1
variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal))

/-- The first matmul stage at `(r, f)`: the sum over the 128 features of the input. -/
theorem matmul1_apply (r : Fin 50000) (f : Fin 128) :
    ReadP.val_main_v32 (F := Ideal) x0 x2 (ix2 r f) = ∑ k : Fin 128, x0 (ix2 r k) * x2 (ix2 k f) := by
  rw [ReadP.val_main_v32_apply]
  refine Finset.sum_congr rfl fun k _ => ?_
  have el : ReadP.lidx_main_v32 (ix2 r f) k = ix2 r k :=
    funext fun a => Fin.ext (by match a with | ⟨0, _⟩ => rfl | ⟨1, _⟩ => rfl)
  have er : ReadP.ridx_main_v32 (ix2 r f) k = ix2 k f :=
    funext fun a => Fin.ext (by match a with | ⟨0, _⟩ => rfl | ⟨1, _⟩ => rfl)
  rw [el, er]

/-- The first layer's message `b` at column `e`: the matmul stage at the message's (normalised, clamped) source
    row, column `e`, times the message's weight. -/
theorem message1_at (b : Fin 850000) (e : Fin 128) :
    ReadP.val_main_v42 (F := Ideal) x0 x1 x2 (ix2 b e) =
      ReadP.val_main_v32 (F := Ideal) x0 x2 (ix2 (gatherRow 50000 pos50000 (ReadP.val_main_v38 (F := Ideal) x1) b) e)
        * (ReadP.val_main_v16 (F := Ideal) x1 (ix1 (gatherRow 50000 pos50000 (ReadP.val_main_v22 (F := Ideal) x1) b))
          * ReadP.val_main_v16 (F := Ideal) x1 (ix1 (gatherRow 50000 pos50000 (ReadP.val_main_v29 (F := Ideal) x1) b))) := by
  have eg : ReadP.val_main_v39 (F := Ideal) x0 x1 x2 (ix2 b e)
      = ReadP.val_main_v32 (F := Ideal) x0 x2 (ix2 (gatherRow 50000 pos50000 (ReadP.val_main_v38 (F := Ideal) x1) b) e) := by
    unfold ReadP.val_main_v39
    exact gather_row_apply (N := 50000) (B := 850000) (D := 128) pos50000
      Facts₀.gather_S50000x128_S850000x1_S850000x128_1_0_n_n_0_1_1128_wf
      (ReadP.val_main_v32 (F := Ideal) x0 x2) (ReadP.val_main_v38 (F := Ideal) x1) b e
  have ew : ReadP.val_main_v41 (F := Ideal) x1 (ix2 b e) = ReadP.val_main_v31 (F := Ideal) x1 (ix1 b) := by
    rw [ReadP.val_main_v41_apply, ReadP.val_main_v40_apply]
    exact congrArg _ (funext fun a => Fin.ext (by match a with | ⟨0, _⟩ => rfl))
  rw [ReadP.val_main_v42_apply, eg, ew, weight_apply, Ideal.mulf_def]

/-- The same at an index `j` of the message array, through its two coordinates. -/
theorem message1_apply (j : S850000x128.Idx) :
    ReadP.val_main_v42 (F := Ideal) x0 x1 x2 j =
      ReadP.val_main_v32 (F := Ideal) x0 x2 (ix2 (gatherRow 50000 pos50000 (ReadP.val_main_v38 (F := Ideal) x1) (j 0)) (j 1))
        * (ReadP.val_main_v16 (F := Ideal) x1 (ix1 (gatherRow 50000 pos50000 (ReadP.val_main_v22 (F := Ideal) x1) (j 0)))
          * ReadP.val_main_v16 (F := Ideal) x1 (ix1 (gatherRow 50000 pos50000 (ReadP.val_main_v29 (F := Ideal) x1) (j 0)))) :=
  (congrArg (ReadP.val_main_v42 (F := Ideal) x0 x1 x2) (eq_ix2 j)).trans (message1_at x0 x1 x2 (j 0) (j 1))

/-- THE FIRST LAYER AT `(r, f)`: zero plus the sum of the messages landing there, plus the bias at `f`. -/
theorem layer1_apply (r : Fin 50000) (f : Fin 128) :
    ReadP.val_main_v48 (F := Ideal) x0 x1 x2 x3 (ix2 r f) =
      (0 + ∑ j ∈ Finset.univ.filter (fun j => scatter_S50000x128_S850000x1_S850000x128_1_0_0_1.resultIdx? j
            (ReadP.val_main_v44 (F := Ideal) x1) = some (ix2 r f)),
          ReadP.val_main_v32 (F := Ideal) x0 x2 (ix2 (gatherRow 50000 pos50000 (ReadP.val_main_v38 (F := Ideal) x1) (j 0)) (j 1))
            * (ReadP.val_main_v16 (F := Ideal) x1 (ix1 (gatherRow 50000 pos50000 (ReadP.val_main_v22 (F := Ideal) x1) (j 0)))
              * ReadP.val_main_v16 (F := Ideal) x1 (ix1 (gatherRow 50000 pos50000 (ReadP.val_main_v29 (F := Ideal) x1) (j 0)))))
        + x3 (ix1 f) := by
  have eb : ReadP.val_main_v47 (F := Ideal) x3 (ix2 r f) = x3 (ix1 f) := by
    rw [ReadP.val_main_v47_apply, ReadP.val_main_v46_apply]
    exact congrArg x3 (funext fun a => Fin.ext (by match a with | ⟨0, _⟩ => rfl))
  have es : ReadP.val_main_v45 (F := Ideal) x0 x1 x2 (ix2 r f)
      = 0 + ∑ j ∈ Finset.univ.filter (fun j => scatter_S50000x128_S850000x1_S850000x128_1_0_0_1.resultIdx? j
            (ReadP.val_main_v44 (F := Ideal) x1) = some (ix2 r f)), ReadP.val_main_v42 (F := Ideal) x0 x1 x2 j := by
    refine (scatterAdd_apply scatter_S50000x128_S850000x1_S850000x128_1_0_0_1 (ReadP.val_main_v43 (F := Ideal))
      (ReadP.val_main_v44 (F := Ideal) x1) (ReadP.val_main_v42 (F := Ideal) x0 x1 x2) (ix2 r f)).trans ?_
    rw [ReadP.val_main_v43_apply, ReadP.val_main_cst_9_apply, Ideal.ofBits_def, Ideal.ofBits_zero_f32]
  rw [ReadP.val_main_v48_apply, eb, es, Ideal.addf_def]
  exact congrArg (· + x3 (ix1 f)) (congrArg (0 + ·) (Finset.sum_congr rfl fun j _ => message1_apply x0 x1 x2 j))

/-- The first rectifier. -/
theorem relu1_apply (i : S50000x128.Idx) :
    ReadP.val_main_v49 (F := Ideal) x0 x1 x2 x3 i = max (ReadP.val_main_v48 (F := Ideal) x0 x1 x2 x3 i) 0 := by
  rw [ReadP.val_main_v49_apply, ReadP.val_main_call1_v0_apply, ReadP.val_main_call1_cst_apply, Ideal.maximumf_def,
    Ideal.ofBits_def, Ideal.ofBits_zero_f32]

end Layer1

/-! ## The second layer -/

section Layer2
variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))

/-- The second matmul stage at `(r, f)`: the sum over the 128 features of the rectified first layer. -/
theorem matmul2_apply (r : Fin 50000) (f : Fin 128) :
    ReadP.val_main_v50 (F := Ideal) x0 x1 x2 x3 x4 (ix2 r f) = ∑ k : Fin 128, (ReadP.val_main_v49 (F := Ideal) x0 x1 x2 x3) (ix2 r k) * x4 (ix2 k f) := by
  rw [ReadP.val_main_v50_apply]
  refine Finset.sum_congr rfl fun k _ => ?_
  have el : ReadP.lidx_main_v50 (ix2 r f) k = ix2 r k :=
    funext fun a => Fin.ext (by match a with | ⟨0, _⟩ => rfl | ⟨1, _⟩ => rfl)
  have er : ReadP.ridx_main_v50 (ix2 r f) k = ix2 k f :=
    funext fun a => Fin.ext (by match a with | ⟨0, _⟩ => rfl | ⟨1, _⟩ => rfl)
  rw [el, er]

/-- The second layer's message `b` at column `e`: the matmul stage at the message's (normalised, clamped) source
    row, column `e`, times the message's weight. -/
theorem message2_at (b : Fin 850000) (e : Fin 128) :
    ReadP.val_main_v60 (F := Ideal) x0 x1 x2 x3 x4 (ix2 b e) =
      ReadP.val_main_v50 (F := Ideal) x0 x1 x2 x3 x4 (ix2 (gatherRow 50000 pos50000 (ReadP.val_main_v56 (F := Ideal) x1) b) e)
        * (ReadP.val_main_v16 (F := Ideal) x1 (ix1 (gatherRow 50000 pos50000 (ReadP.val_main_v22 (F := Ideal) x1) b))
          * ReadP.val_main_v16 (F := Ideal) x1 (ix1 (gatherRow 50000 pos50000 (ReadP.val_main_v29 (F := Ideal) x1) b))) := by
  have eg : ReadP.val_main_v57 (F := Ideal) x0 x1 x2 x3 x4 (ix2 b e)
      = ReadP.val_main_v50 (F := Ideal) x0 x1 x2 x3 x4 (ix2 (gatherRow 50000 pos50000 (ReadP.val_main_v56 (F := Ideal) x1) b) e) := by
    unfold ReadP.val_main_v57
    exact gather_row_apply (N := 50000) (B := 850000) (D := 128) pos50000
      Facts₀.gather_S50000x128_S850000x1_S850000x128_1_0_n_n_0_1_1128_wf
      (ReadP.val_main_v50 (F := Ideal) x0 x1 x2 x3 x4) (ReadP.val_main_v56 (F := Ideal) x1) b e
  have ew : ReadP.val_main_v59 (F := Ideal) x1 (ix2 b e) = ReadP.val_main_v31 (F := Ideal) x1 (ix1 b) := by
    rw [ReadP.val_main_v59_apply, ReadP.val_main_v58_apply]
    exact congrArg _ (funext fun a => Fin.ext (by match a with | ⟨0, _⟩ => rfl))
  rw [ReadP.val_main_v60_apply, eg, ew, weight_apply, Ideal.mulf_def]

/-- The same at an index `j` of the message array, through its two coordinates. -/
theorem message2_apply (j : S850000x128.Idx) :
    ReadP.val_main_v60 (F := Ideal) x0 x1 x2 x3 x4 j =
      ReadP.val_main_v50 (F := Ideal) x0 x1 x2 x3 x4 (ix2 (gatherRow 50000 pos50000 (ReadP.val_main_v56 (F := Ideal) x1) (j 0)) (j 1))
        * (ReadP.val_main_v16 (F := Ideal) x1 (ix1 (gatherRow 50000 pos50000 (ReadP.val_main_v22 (F := Ideal) x1) (j 0)))
          * ReadP.val_main_v16 (F := Ideal) x1 (ix1 (gatherRow 50000 pos50000 (ReadP.val_main_v29 (F := Ideal) x1) (j 0)))) :=
  (congrArg (ReadP.val_main_v60 (F := Ideal) x0 x1 x2 x3 x4) (eq_ix2 j)).trans (message2_at x0 x1 x2 x3 x4 (j 0) (j 1))

/-- THE SECOND LAYER AT `(r, f)`: zero plus the sum of the messages landing there, plus the bias at `f`. This layer's
    destination column is the same term as the first layer's, and is written so. -/
theorem layer2_apply (r : Fin 50000) (f : Fin 128) :
    ReadP.val_main_v66 (F := Ideal) x0 x1 x2 x3 x4 x5 (ix2 r f) =
      (0 + ∑ j ∈ Finset.univ.filter (fun j => scatter_S50000x128_S850000x1_S850000x128_1_0_0_1.resultIdx? j
            (ReadP.val_main_v44 (F := Ideal) x1) = some (ix2 r f)),
          ReadP.val_main_v50 (F := Ideal) x0 x1 x2 x3 x4 (ix2 (gatherRow 50000 pos50000 (ReadP.val_main_v56 (F := Ideal) x1) (j 0)) (j 1))
            * (ReadP.val_main_v16 (F := Ideal) x1 (ix1 (gatherRow 50000 pos50000 (ReadP.val_main_v22 (F := Ideal) x1) (j 0)))
              * ReadP.val_main_v16 (F := Ideal) x1 (ix1 (gatherRow 50000 pos50000 (ReadP.val_main_v29 (F := Ideal) x1) (j 0)))))
        + x5 (ix1 f) := by
  have eb : ReadP.val_main_v65 (F := Ideal) x5 (ix2 r f) = x5 (ix1 f) := by
    rw [ReadP.val_main_v65_apply, ReadP.val_main_v64_apply]
    exact congrArg x5 (funext fun a => Fin.ext (by match a with | ⟨0, _⟩ => rfl))
  have es : ReadP.val_main_v63 (F := Ideal) x0 x1 x2 x3 x4 (ix2 r f)
      = 0 + ∑ j ∈ Finset.univ.filter (fun j => scatter_S50000x128_S850000x1_S850000x128_1_0_0_1.resultIdx? j
            (ReadP.val_main_v44 (F := Ideal) x1) = some (ix2 r f)), ReadP.val_main_v60 (F := Ideal) x0 x1 x2 x3 x4 j := by
    refine (scatterAdd_apply scatter_S50000x128_S850000x1_S850000x128_1_0_0_1 (ReadP.val_main_v61 (F := Ideal))
      (ReadP.val_main_v44 (F := Ideal) x1) (ReadP.val_main_v60 (F := Ideal) x0 x1 x2 x3 x4) (ix2 r f)).trans ?_
    rw [ReadP.val_main_v61_apply, ReadP.val_main_cst_12_apply, Ideal.ofBits_def, Ideal.ofBits_zero_f32]
  rw [ReadP.val_main_v66_apply, eb, es, Ideal.addf_def]
  exact congrArg (· + x5 (ix1 f)) (congrArg (0 + ·) (Finset.sum_congr rfl fun j _ => message2_apply x0 x1 x2 x3 x4 j))

/-- The second rectifier. -/
theorem relu2_apply (i : S50000x128.Idx) :
    ReadP.val_main_v67 (F := Ideal) x0 x1 x2 x3 x4 x5 i = max (ReadP.val_main_v66 (F := Ideal) x0 x1 x2 x3 x4 x5 i) 0 := by
  rw [ReadP.val_main_v67_apply, ReadP.val_main_call2_v0_apply, ReadP.val_main_call2_cst_apply, Ideal.maximumf_def,
    Ideal.ofBits_def, Ideal.ofBits_zero_f32]

end Layer2

/-! ## The third layer -/

section Layer3
variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal))

/-- The third matmul stage at `(r, f)`: the sum over the 128 features of the rectified second layer. -/
theorem matmul3_apply (r : Fin 50000) (f : Fin 64) :
    ReadP.val_main_v68 (F := Ideal) x0 x1 x2 x3 x4 x5 x6 (ix2 r f) = ∑ k : Fin 128, (ReadP.val_main_v67 (F := Ideal) x0 x1 x2 x3 x4 x5) (ix2 r k) * x6 (ix2 k f) := by
  rw [ReadP.val_main_v68_apply]
  refine Finset.sum_congr rfl fun k _ => ?_
  have el : ReadP.lidx_main_v68 (ix2 r f) k = ix2 r k :=
    funext fun a => Fin.ext (by match a with | ⟨0, _⟩ => rfl | ⟨1, _⟩ => rfl)
  have er : ReadP.ridx_main_v68 (ix2 r f) k = ix2 k f :=
    funext fun a => Fin.ext (by match a with | ⟨0, _⟩ => rfl | ⟨1, _⟩ => rfl)
  rw [el, er]

/-- The third layer's message `b` at column `e`: the matmul stage at the message's (normalised, clamped) source
    row, column `e`, times the message's weight. -/
theorem message3_at (b : Fin 850000) (e : Fin 64) :
    ReadP.val_main_v78 (F := Ideal) x0 x1 x2 x3 x4 x5 x6 (ix2 b e) =
      ReadP.val_main_v68 (F := Ideal) x0 x1 x2 x3 x4 x5 x6 (ix2 (gatherRow 50000 pos50000 (ReadP.val_main_v74 (F := Ideal) x1) b) e)
        * (ReadP.val_main_v16 (F := Ideal) x1 (ix1 (gatherRow 50000 pos50000 (ReadP.val_main_v22 (F := Ideal) x1) b))
          * ReadP.val_main_v16 (F := Ideal) x1 (ix1 (gatherRow 50000 pos50000 (ReadP.val_main_v29 (F := Ideal) x1) b))) := by
  have eg : ReadP.val_main_v75 (F := Ideal) x0 x1 x2 x3 x4 x5 x6 (ix2 b e)
      = ReadP.val_main_v68 (F := Ideal) x0 x1 x2 x3 x4 x5 x6 (ix2 (gatherRow 50000 pos50000 (ReadP.val_main_v74 (F := Ideal) x1) b) e) := by
    unfold ReadP.val_main_v75
    exact gather_row_apply (N := 50000) (B := 850000) (D := 64) pos50000
      Facts₀.gather_S50000x64_S850000x1_S850000x64_1_0_n_n_0_1_164_wf
      (ReadP.val_main_v68 (F := Ideal) x0 x1 x2 x3 x4 x5 x6) (ReadP.val_main_v74 (F := Ideal) x1) b e
  have ew : ReadP.val_main_v77 (F := Ideal) x1 (ix2 b e) = ReadP.val_main_v31 (F := Ideal) x1 (ix1 b) := by
    rw [ReadP.val_main_v77_apply, ReadP.val_main_v76_apply]
    exact congrArg _ (funext fun a => Fin.ext (by match a with | ⟨0, _⟩ => rfl))
  rw [ReadP.val_main_v78_apply, eg, ew, weight_apply, Ideal.mulf_def]

/-- The same at an index `j` of the message array, through its two coordinates. -/
theorem message3_apply (j : S850000x64.Idx) :
    ReadP.val_main_v78 (F := Ideal) x0 x1 x2 x3 x4 x5 x6 j =
      ReadP.val_main_v68 (F := Ideal) x0 x1 x2 x3 x4 x5 x6 (ix2 (gatherRow 50000 pos50000 (ReadP.val_main_v74 (F := Ideal) x1) (j 0)) (j 1))
        * (ReadP.val_main_v16 (F := Ideal) x1 (ix1 (gatherRow 50000 pos50000 (ReadP.val_main_v22 (F := Ideal) x1) (j 0)))
          * ReadP.val_main_v16 (F := Ideal) x1 (ix1 (gatherRow 50000 pos50000 (ReadP.val_main_v29 (F := Ideal) x1) (j 0)))) :=
  (congrArg (ReadP.val_main_v78 (F := Ideal) x0 x1 x2 x3 x4 x5 x6) (eq_ix2 j)).trans (message3_at x0 x1 x2 x3 x4 x5 x6 (j 0) (j 1))

/-- THE THIRD LAYER AT `(r, f)`: zero plus the sum of the messages landing there, plus the bias at `f`. This layer's
    destination column is the same term as the first layer's, and is written so. -/
theorem layer3_apply (r : Fin 50000) (f : Fin 64) :
    ReadP.val_main_v84 (F := Ideal) x0 x1 x2 x3 x4 x5 x6 x7 (ix2 r f) =
      (0 + ∑ j ∈ Finset.univ.filter (fun j => scatter_S50000x64_S850000x1_S850000x64_1_0_0_1.resultIdx? j
            (ReadP.val_main_v44 (F := Ideal) x1) = some (ix2 r f)),
          ReadP.val_main_v68 (F := Ideal) x0 x1 x2 x3 x4 x5 x6 (ix2 (gatherRow 50000 pos50000 (ReadP.val_main_v74 (F := Ideal) x1) (j 0)) (j 1))
            * (ReadP.val_main_v16 (F := Ideal) x1 (ix1 (gatherRow 50000 pos50000 (ReadP.val_main_v22 (F := Ideal) x1) (j 0)))
              * ReadP.val_main_v16 (F := Ideal) x1 (ix1 (gatherRow 50000 pos50000 (ReadP.val_main_v29 (F := Ideal) x1) (j 0)))))
        + x7 (ix1 f) := by
  have eb : ReadP.val_main_v83 (F := Ideal) x7 (ix2 r f) = x7 (ix1 f) := by
    rw [ReadP.val_main_v83_apply, ReadP.val_main_v82_apply]
    exact congrArg x7 (funext fun a => Fin.ext (by match a with | ⟨0, _⟩ => rfl))
  have es : ReadP.val_main_v81 (F := Ideal) x0 x1 x2 x3 x4 x5 x6 (ix2 r f)
      = 0 + ∑ j ∈ Finset.univ.filter (fun j => scatter_S50000x64_S850000x1_S850000x64_1_0_0_1.resultIdx? j
            (ReadP.val_main_v44 (F := Ideal) x1) = some (ix2 r f)), ReadP.val_main_v78 (F := Ideal) x0 x1 x2 x3 x4 x5 x6 j := by
    refine (scatterAdd_apply scatter_S50000x64_S850000x1_S850000x64_1_0_0_1 (ReadP.val_main_v79 (F := Ideal))
      (ReadP.val_main_v44 (F := Ideal) x1) (ReadP.val_main_v78 (F := Ideal) x0 x1 x2 x3 x4 x5 x6) (ix2 r f)).trans ?_
    rw [ReadP.val_main_v79_apply, ReadP.val_main_cst_15_apply, Ideal.ofBits_def, Ideal.ofBits_zero_f32]
  rw [ReadP.val_main_v84_apply, eb, es, Ideal.addf_def]
  exact congrArg (· + x7 (ix1 f)) (congrArg (0 + ·) (Finset.sum_congr rfl fun j _ => message3_apply x0 x1 x2 x3 x4 x5 x6 j))

end Layer3

/-! ## The decoder -/

section Decoder
variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal))

/-- THE DECODER AT ROW `r`: the sum over the third layer's 64 columns against the output weights, plus the output
    bias. -/
theorem decoder_apply (r : Fin 50000) :
    ReadP.val_main_v88 (F := Ideal) x0 x1 x2 x3 x4 x5 x6 x7 x8 x9 (ix2 r (0 : Fin 1)) =
      (∑ k : Fin 64, ReadP.val_main_v84 (F := Ideal) x0 x1 x2 x3 x4 x5 x6 x7 (ix2 r k) * x8 (ix2 k (0 : Fin 1))) + x9 (ix1 (0 : Fin 1)) := by
  have eb : ReadP.val_main_v87 (F := Ideal) x9 (ix2 r (0 : Fin 1)) = x9 (ix1 (0 : Fin 1)) := by
    rw [ReadP.val_main_v87_apply, ReadP.val_main_v86_apply]
    exact congrArg x9 (funext fun a => Fin.ext (by match a with | ⟨0, _⟩ => rfl))
  have ed : ReadP.val_main_v85 (F := Ideal) x0 x1 x2 x3 x4 x5 x6 x7 x8 (ix2 r (0 : Fin 1))
      = ∑ k : Fin 64, ReadP.val_main_v84 (F := Ideal) x0 x1 x2 x3 x4 x5 x6 x7 (ix2 r k) * x8 (ix2 k (0 : Fin 1)) := by
    rw [ReadP.val_main_v85_apply]
    refine Finset.sum_congr rfl fun k _ => ?_
    have el : ReadP.lidx_main_v85 (ix2 r (0 : Fin 1)) k = ix2 r k :=
      funext fun a => Fin.ext (by match a with | ⟨0, _⟩ => rfl | ⟨1, _⟩ => rfl)
    have er : ReadP.ridx_main_v85 (ix2 r (0 : Fin 1)) k = ix2 k (0 : Fin 1) :=
      funext fun a => Fin.ext (by match a with | ⟨0, _⟩ => rfl | ⟨1, _⟩ => rfl)
    rw [el, er]
  rw [ReadP.val_main_v88_apply, eb, ed, Ideal.addf_def]

end Decoder

end Cert.ReferenceIdeal.RefValue

end
-- ==== Proof.RegionArraysAt.lean ====
/-
  The four regions' functions read at an entry given by its coordinates: row `s`, column `g`.

  Each function is defined at an index `i` through the index's coordinates `i 0`, `i 1`; at the index built from `s`
  and `g` those coordinates are `s` and `g`, so the entry is the stated sum over the row and the column.
-/
import proofs.«106710_j9405978378565_2_alg».proof.Proof.RegionArrays

noncomputable section

open scoped BigOperators

namespace Cert.KernelIdeal.RegionValue

open Cert.KernelIdeal Idealize.ShloMosaic Idealize.ShloMosaic.ValueIdx

/-- Row `s`, column `g` of the first region's array. -/
theorem scaledProduct0_at (A : S50000x128.Idx → EReal) (W : S128x128.Idx → EReal) (d : S50000x1.Idx → EReal)
    (s : Fin 50000) (g : Fin 128) :
    scaledProduct0 A W d (ix2 s g) = (∑ k : Fin 128, A (ix2 s k) * W (ix2 k g)) * d (ix2 s (0 : Fin 1)) := rfl

/-- Row `s`, column `g` of the second region's array. -/
theorem scaledReluProduct1_at (A : S50000x128.Idx → EReal) (d : S50000x1.Idx → EReal) (b : S1x128.Idx → EReal)
    (W : S128x128.Idx → EReal) (s : Fin 50000) (g : Fin 128) :
    scaledReluProduct1 A d b W (ix2 s g)
      = (∑ k : Fin 128, max (A (ix2 s k) * d (ix2 s (0 : Fin 1)) + b (ix2 (0 : Fin 1) k)) 0 * W (ix2 k g))
        * d (ix2 s (0 : Fin 1)) := rfl

/-- Row `s`, column `g` of the third region's array. -/
theorem scaledReluProduct2_at (A : S50000x128.Idx → EReal) (d : S50000x1.Idx → EReal) (b : S1x128.Idx → EReal)
    (W : S128x64.Idx → EReal) (s : Fin 50000) (g : Fin 64) :
    scaledReluProduct2 A d b W (ix2 s g)
      = (∑ k : Fin 128, max (A (ix2 s k) * d (ix2 s (0 : Fin 1)) + b (ix2 (0 : Fin 1) k)) 0 * W (ix2 k g))
        * d (ix2 s (0 : Fin 1)) := rfl

/-- Row `s`, column `g` of the embeddings. -/
theorem scaledBiased3_at (A : S50000x64.Idx → EReal) (d : S50000x1.Idx → EReal) (b : S1x64.Idx → EReal)
    (s : Fin 50000) (g : Fin 64) :
    scaledBiased3 A d b (ix2 s g) = A (ix2 s g) * d (ix2 s (0 : Fin 1)) + b (ix2 (0 : Fin 1) g) := rfl

/-- Row `s` of the decoded column. -/
theorem decoded3_at (A : S50000x64.Idx → EReal) (d : S50000x1.Idx → EReal) (b : S1x64.Idx → EReal)
    (Wout : S64x1.Idx → EReal) (bout : S1x1.Idx → EReal) (s : Fin 50000) :
    decoded3 A d b Wout bout (ix2 s (0 : Fin 1))
      = (∑ k : Fin 64, (A (ix2 s k) * d (ix2 s (0 : Fin 1)) + b (ix2 (0 : Fin 1) k)) * Wout (ix2 k (0 : Fin 1)))
        + bout (ix2 (0 : Fin 1) (0 : Fin 1)) := rfl

end Cert.KernelIdeal.RegionValue

end
-- ==== Proof.LibScaledScatter.lean ====
/-
  GENERAL LEMMA: a per-destination scale moved across a scatter-add.

  A scatter-add from zero sums, into each entry `i` of its operand, the updates that land there. Suppose every update is
  a product `t j * ds j` (a message times its source's factor). Then the sum at `i`, scaled there by a factor `d0` that
  is nonnegative and not +∞, is the sum at `i` of the updates `t j * (ds j * dd j)` — provided the per-update factor
  `dd j` is `d0` on every update that lands at `i`. This is the step between "scale the sources, sum, scale the
  destination" and "scale each message by both factors, then sum".
-/
import Idealize.ShloMosaic.PureOps.Ideal
import proofs.«106710_j9405978378565_2_alg».proof.Proof.LibScaledSum

noncomputable section

namespace Idealize.ShloMosaic.ScaledSum

open Idealize.ShloMosaic

/-- THE SCALE ACROSS A SCATTER-ADD, for any scatter: updates `t j * ds j` summed from zero into entry `i` and scaled there
    by `d0` are the updates `t j * (ds j * dd j)` summed, when `dd j` is `d0` for every update that lands at `i`. -/
theorem scatter_add_scaled {s si su : Shape} (d : ScatterDims s si su) {w : Nat} (x : s.Idx → EReal) (idx : IVec si w)
    (t ds dd : su.Idx → EReal) (i : s.Idx) (hx : x i = 0) {d0 : EReal} (h0 : 0 ≤ d0) (ht : d0 ≠ ⊤)
    (hdd : ∀ j, d.resultIdx? j idx = some i → dd j = d0) :
    Ideal.hostScatterAdd d x idx (fun j => t j * ds j) i * d0
      = Ideal.hostScatterAdd d x idx (fun j => t j * (ds j * dd j)) i := by
  unfold Ideal.hostScatterAdd
  rw [hx]
  exact scaled_sum _ t ds dd h0 ht (fun j hj => hdd j (Finset.mem_filter.mp hj).2)

end Idealize.ShloMosaic.ScaledSum

end
-- ==== Proof.BridgeAgg.lean ====
/-
  The kernel's message passing joined to the reference's.

  Both programs pass messages along the same 850000 edges and self loops. The kernel scales each node's row by the
  node's factor before it is sent, adds the rows up at their destinations, and scales each sum by the destination's
  factor; the reference scales each message by the product of the two factors and then adds. The factor is a
  nonnegative real, so it distributes over the sum at each destination, and a message that lands at a node has that
  node as its destination: the two are the same sum. This module proves the columns of row numbers and the factor of
  the two programs to be the same terms, and then that equality of sums, at both widths.
-/
import proofs.«106710_j9405978378565_2_alg».proof.Proof.RefLayers
import proofs.«106710_j9405978378565_2_alg».proof.Proof.LibScaledScatter
import proofs.«106710_j9405978378565_2_alg».proof.Proof.KernelTerms
import Idealize.ShloMosaic.Lib.ValueIdx
import Idealize.ShloMosaic.Lib.Pipeline.Value
import Idealize.ShloMosaic.PureOps.Ideal.Laws

noncomputable section

namespace Cert.Proof.Bridge

open Idealize.ShloMosaic Idealize.ShloMosaic.ValueIdx
open Cert.ReferenceIdeal Cert.ReferenceIdeal.RefValue

/-! ## The two programs' index columns and factor are the same terms -/

section Terms
variable (ei : Cert.KernelIdeal.StageValue.Arr Cert.KernelIdeal.S2x800000 .i32)

/-- The kernel's column of source rows is the reference's. -/
theorem srcCol_eq : Cert.KernelIdeal.StageValue.srcCol ei = ReadP.val_main_v38 (F := Ideal) ei := rfl

/-- The kernel's column of destination rows is the reference's. -/
theorem dstCol_eq : Cert.KernelIdeal.StageValue.dstCol ei = ReadP.val_main_v44 (F := Ideal) ei := rfl

/-- The kernel's factor is the reference's. -/
theorem dis_eq : Cert.KernelIdeal.StageValue.dis ei = ReadP.val_main_v16 (F := Ideal) ei := rfl

/-- The kernel's factor column at row `r` is the reference's factor at node `r`. -/
theorem d2_apply (r : Fin 50000) :
    Cert.KernelIdeal.StageValue.d2 ei (ix2 r (0 : Fin 1)) = ReadP.val_main_v16 (F := Ideal) ei (ix1 r) := by
  unfold Cert.KernelIdeal.StageValue.d2
  refine (shapeCast_apply (Cert.KernelIdeal.StageValue.dis ei) _ (ix2 r (0 : Fin 1)) (ix1 r) ?_).trans
    (congrFun (dis_eq ei) (ix1 r))
  rewrite [Shape.rowMajor_val_one, Shape.rowMajor_val_two]
  show r.val = r.val * 1 + 0
  omega

end Terms

/-! ## The scale across the message sum -/

/-- The host's accumulating scatter at the exact values is the exact accumulating scatter. -/
theorem scatterAdd_eq {s si u : Shape} {w : Nat} (d : ScatterDims s si u) (x : FVec Ideal s .f32) (idx : IVec si w)
    (upd : FVec Ideal u .f32) : Host.scatterAdd d x idx upd = Ideal.hostScatterAdd d x idx upd := rfl

section Agg128
variable (ei : Cert.KernelIdeal.StageValue.Arr Cert.KernelIdeal.S2x800000 .i32)
  (ts : Cert.KernelIdeal.StageValue.Arr Cert.KernelIdeal.S50000x128 .bf16)
  (T : (⟨S50000x128, .f32⟩ : BufTy).Contents (Elt Ideal)) (updR : (⟨S850000x128, .f32⟩ : BufTy).Contents (Elt Ideal))

/-- THE SCALE ACROSS THE MESSAGE SUM, at width 128. If the rows the kernel sends are the rows of `T` scaled by their
    own node's factor, and the reference's messages are the rows of `T` at the source scaled by the product of the two
    end nodes' factors, then the kernel's sum at `(r, f)`, scaled by `r`'s factor, is the reference's sum there. -/
theorem agg128_scaled
    (hts : ∀ (s : Fin 50000) (g : Fin 128), ts (ix2 s g) = T (ix2 s g) * ReadP.val_main_v16 (F := Ideal) ei (ix1 s))
    (hupd : ∀ (b : Fin 850000) (e : Fin 128), updR (ix2 b e)
      = T (ix2 (gatherRow 50000 pos50000 (ReadP.val_main_v38 (F := Ideal) ei) b) e) * (ReadP.val_main_v16 (F := Ideal) ei (ix1 (gatherRow 50000 pos50000 (ReadP.val_main_v22 (F := Ideal) ei) b)) * ReadP.val_main_v16 (F := Ideal) ei (ix1 (gatherRow 50000 pos50000 (ReadP.val_main_v29 (F := Ideal) ei) b))))
    (r : Fin 50000) (f : Fin 128) :
    Cert.KernelIdeal.StageValue.agg128 ei ts (ix2 r f) * ReadP.val_main_v16 (F := Ideal) ei (ix1 r)
      = Host.scatterAdd (F := Ideal) (φ := .f32) scatter_S50000x128_S850000x1_S850000x128_1_0_0_1 (ReadP.val_main_v43 (F := Ideal))
          (ReadP.val_main_v44 (F := Ideal) ei) updR (ix2 r f) := by
  have hx : ReadP.val_main_v43 (F := Ideal) (ix2 r f) = 0 := by
    rw [ReadP.val_main_v43_apply, ReadP.val_main_cst_9_apply, Ideal.ofBits_def, Ideal.ofBits_zero_f32]
  obtain ⟨h0, htop⟩ := dis_nonneg ei (ix1 r)
  have h := ScaledSum.scatter_add_scaled scatter_S50000x128_S850000x1_S850000x128_1_0_0_1
    (ReadP.val_main_v43 (F := Ideal)) (ReadP.val_main_v44 (F := Ideal) ei)
    (fun j => T (ix2 (gatherRow 50000 pos50000 (ReadP.val_main_v38 (F := Ideal) ei) (j 0)) (j 1)))
    (fun j => ReadP.val_main_v16 (F := Ideal) ei (ix1 (gatherRow 50000 pos50000 (ReadP.val_main_v38 (F := Ideal) ei) (j 0))))
    (fun j => ReadP.val_main_v16 (F := Ideal) ei (ix1 (gatherRow 50000 pos50000 (ReadP.val_main_v29 (F := Ideal) ei) (j 0))))
    (ix2 r f) hx h0 htop
    (fun j hj => congrArg (fun q : Fin 50000 => ReadP.val_main_v16 (F := Ideal) ei (ix1 q)) (lands_row128 ei j (ix2 r f) hj))
  have ek : Cert.KernelIdeal.StageValue.agg128 ei ts (ix2 r f)
      = Ideal.hostScatterAdd scatter_S50000x128_S850000x1_S850000x128_1_0_0_1 (ReadP.val_main_v43 (F := Ideal)) (ReadP.val_main_v44 (F := Ideal) ei)
          (fun j => T (ix2 (gatherRow 50000 pos50000 (ReadP.val_main_v38 (F := Ideal) ei) (j 0)) (j 1))
            * ReadP.val_main_v16 (F := Ideal) ei (ix1 (gatherRow 50000 pos50000 (ReadP.val_main_v38 (F := Ideal) ei) (j 0)))) (ix2 r f) := by
    unfold Cert.KernelIdeal.StageValue.agg128
    rw [scatterAdd_eq, dstCol_eq, srcCol_eq]
    refine congrFun (congrArg (Ideal.hostScatterAdd scatter_S50000x128_S850000x1_S850000x128_1_0_0_1 (ReadP.val_main_v43 (F := Ideal))
      (ReadP.val_main_v44 (F := Ideal) ei)) (funext fun j => ?_)) (ix2 r f)
    exact ((congrArg (Host.gather _ ts (ReadP.val_main_v38 (F := Ideal) ei)) (eq_ix2 j)).trans
      (gather_row_apply (N := 50000) (B := 850000) (D := 128) pos50000
        Cert.KernelIdeal.Facts₀.gather_S50000x128_S850000x1_S850000x128_1_0_n_n_0_1_1128_wf ts
        (ReadP.val_main_v38 (F := Ideal) ei) (j 0) (j 1))).trans (hts _ _)
  have er : Host.scatterAdd (F := Ideal) (φ := .f32) scatter_S50000x128_S850000x1_S850000x128_1_0_0_1 (ReadP.val_main_v43 (F := Ideal))
        (ReadP.val_main_v44 (F := Ideal) ei) updR (ix2 r f)
      = Ideal.hostScatterAdd scatter_S50000x128_S850000x1_S850000x128_1_0_0_1 (ReadP.val_main_v43 (F := Ideal)) (ReadP.val_main_v44 (F := Ideal) ei)
          (fun j => T (ix2 (gatherRow 50000 pos50000 (ReadP.val_main_v38 (F := Ideal) ei) (j 0)) (j 1))
            * (ReadP.val_main_v16 (F := Ideal) ei (ix1 (gatherRow 50000 pos50000 (ReadP.val_main_v38 (F := Ideal) ei) (j 0)))
              * ReadP.val_main_v16 (F := Ideal) ei (ix1 (gatherRow 50000 pos50000 (ReadP.val_main_v29 (F := Ideal) ei) (j 0))))) (ix2 r f) := by
    rw [scatterAdd_eq]
    refine congrFun (congrArg (Ideal.hostScatterAdd scatter_S50000x128_S850000x1_S850000x128_1_0_0_1 (ReadP.val_main_v43 (F := Ideal))
      (ReadP.val_main_v44 (F := Ideal) ei)) (funext fun j => ?_)) (ix2 r f)
    exact (congrArg updR (eq_ix2 j)).trans (hupd (j 0) (j 1))
  exact (congrArg (· * ReadP.val_main_v16 (F := Ideal) ei (ix1 r)) ek).trans (h.trans er.symm)

end Agg128

section Agg64
variable (ei : Cert.KernelIdeal.StageValue.Arr Cert.KernelIdeal.S2x800000 .i32)
  (ts : Cert.KernelIdeal.StageValue.Arr Cert.KernelIdeal.S50000x64 .bf16)
  (T : (⟨S50000x64, .f32⟩ : BufTy).Contents (Elt Ideal)) (updR : (⟨S850000x64, .f32⟩ : BufTy).Contents (Elt Ideal))

/-- THE SCALE ACROSS THE MESSAGE SUM, at width 64. If the rows the kernel sends are the rows of `T` scaled by their
    own node's factor, and the reference's messages are the rows of `T` at the source scaled by the product of the two
    end nodes' factors, then the kernel's sum at `(r, f)`, scaled by `r`'s factor, is the reference's sum there. -/
theorem agg64_scaled
    (hts : ∀ (s : Fin 50000) (g : Fin 64), ts (ix2 s g) = T (ix2 s g) * ReadP.val_main_v16 (F := Ideal) ei (ix1 s))
    (hupd : ∀ (b : Fin 850000) (e : Fin 64), updR (ix2 b e)
      = T (ix2 (gatherRow 50000 pos50000 (ReadP.val_main_v38 (F := Ideal) ei) b) e) * (ReadP.val_main_v16 (F := Ideal) ei (ix1 (gatherRow 50000 pos50000 (ReadP.val_main_v22 (F := Ideal) ei) b)) * ReadP.val_main_v16 (F := Ideal) ei (ix1 (gatherRow 50000 pos50000 (ReadP.val_main_v29 (F := Ideal) ei) b))))
    (r : Fin 50000) (f : Fin 64) :
    Cert.KernelIdeal.StageValue.agg64 ei ts (ix2 r f) * ReadP.val_main_v16 (F := Ideal) ei (ix1 r)
      = Host.scatterAdd (F := Ideal) (φ := .f32) scatter_S50000x64_S850000x1_S850000x64_1_0_0_1 (ReadP.val_main_v79 (F := Ideal))
          (ReadP.val_main_v44 (F := Ideal) ei) updR (ix2 r f) := by
  have hx : ReadP.val_main_v79 (F := Ideal) (ix2 r f) = 0 := by
    rw [ReadP.val_main_v79_apply, ReadP.val_main_cst_15_apply, Ideal.ofBits_def, Ideal.ofBits_zero_f32]
  obtain ⟨h0, htop⟩ := dis_nonneg ei (ix1 r)
  have h := ScaledSum.scatter_add_scaled scatter_S50000x64_S850000x1_S850000x64_1_0_0_1
    (ReadP.val_main_v79 (F := Ideal)) (ReadP.val_main_v44 (F := Ideal) ei)
    (fun j => T (ix2 (gatherRow 50000 pos50000 (ReadP.val_main_v38 (F := Ideal) ei) (j 0)) (j 1)))
    (fun j => ReadP.val_main_v16 (F := Ideal) ei (ix1 (gatherRow 50000 pos50000 (ReadP.val_main_v38 (F := Ideal) ei) (j 0))))
    (fun j => ReadP.val_main_v16 (F := Ideal) ei (ix1 (gatherRow 50000 pos50000 (ReadP.val_main_v29 (F := Ideal) ei) (j 0))))
    (ix2 r f) hx h0 htop
    (fun j hj => congrArg (fun q : Fin 50000 => ReadP.val_main_v16 (F := Ideal) ei (ix1 q)) (lands_row64 ei j (ix2 r f) hj))
  have ek : Cert.KernelIdeal.StageValue.agg64 ei ts (ix2 r f)
      = Ideal.hostScatterAdd scatter_S50000x64_S850000x1_S850000x64_1_0_0_1 (ReadP.val_main_v79 (F := Ideal)) (ReadP.val_main_v44 (F := Ideal) ei)
          (fun j => T (ix2 (gatherRow 50000 pos50000 (ReadP.val_main_v38 (F := Ideal) ei) (j 0)) (j 1))
            * ReadP.val_main_v16 (F := Ideal) ei (ix1 (gatherRow 50000 pos50000 (ReadP.val_main_v38 (F := Ideal) ei) (j 0)))) (ix2 r f) := by
    unfold Cert.KernelIdeal.StageValue.agg64
    rw [scatterAdd_eq, dstCol_eq, srcCol_eq]
    refine congrFun (congrArg (Ideal.hostScatterAdd scatter_S50000x64_S850000x1_S850000x64_1_0_0_1 (ReadP.val_main_v79 (F := Ideal))
      (ReadP.val_main_v44 (F := Ideal) ei)) (funext fun j => ?_)) (ix2 r f)
    exact ((congrArg (Host.gather _ ts (ReadP.val_main_v38 (F := Ideal) ei)) (eq_ix2 j)).trans
      (gather_row_apply (N := 50000) (B := 850000) (D := 64) pos50000
        Cert.KernelIdeal.Facts₀.gather_S50000x64_S850000x1_S850000x64_1_0_n_n_0_1_164_wf ts
        (ReadP.val_main_v38 (F := Ideal) ei) (j 0) (j 1))).trans (hts _ _)
  have er : Host.scatterAdd (F := Ideal) (φ := .f32) scatter_S50000x64_S850000x1_S850000x64_1_0_0_1 (ReadP.val_main_v79 (F := Ideal))
        (ReadP.val_main_v44 (F := Ideal) ei) updR (ix2 r f)
      = Ideal.hostScatterAdd scatter_S50000x64_S850000x1_S850000x64_1_0_0_1 (ReadP.val_main_v79 (F := Ideal)) (ReadP.val_main_v44 (F := Ideal) ei)
          (fun j => T (ix2 (gatherRow 50000 pos50000 (ReadP.val_main_v38 (F := Ideal) ei) (j 0)) (j 1))
            * (ReadP.val_main_v16 (F := Ideal) ei (ix1 (gatherRow 50000 pos50000 (ReadP.val_main_v38 (F := Ideal) ei) (j 0)))
              * ReadP.val_main_v16 (F := Ideal) ei (ix1 (gatherRow 50000 pos50000 (ReadP.val_main_v29 (F := Ideal) ei) (j 0))))) (ix2 r f) := by
    rw [scatterAdd_eq]
    refine congrFun (congrArg (Ideal.hostScatterAdd scatter_S50000x64_S850000x1_S850000x64_1_0_0_1 (ReadP.val_main_v79 (F := Ideal))
      (ReadP.val_main_v44 (F := Ideal) ei)) (funext fun j => ?_)) (ix2 r f)
    exact (congrArg updR (eq_ix2 j)).trans (hupd (j 0) (j 1))
  exact (congrArg (· * ReadP.val_main_v16 (F := Ideal) ei (ix1 r)) ek).trans (h.trans er.symm)

end Agg64

/-! ## Each layer as a scatter of its messages -/

/-- The first layer at `(r, f)` as the accumulating scatter of its messages, plus the bias at `f`. -/
theorem conv1_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal))
    (r : Fin 50000) (f : Fin 128) :
    ReadP.val_main_v48 (F := Ideal) x0 x1 x2 x3 (ix2 r f)
      = Host.scatterAdd (F := Ideal) (φ := .f32) scatter_S50000x128_S850000x1_S850000x128_1_0_0_1 (ReadP.val_main_v43 (F := Ideal))
          (ReadP.val_main_v44 (F := Ideal) x1) (ReadP.val_main_v42 (F := Ideal) x0 x1 x2) (ix2 r f) + x3 (ix1 f) := by
  have eb : ReadP.val_main_v47 (F := Ideal) x3 (ix2 r f) = x3 (ix1 f) := by
    rw [ReadP.val_main_v47_apply, ReadP.val_main_v46_apply]
    exact congrArg x3 (funext fun a => Fin.ext (by match a with | ⟨0, _⟩ => rfl))
  rw [ReadP.val_main_v48_apply, eb, Ideal.addf_def]
  unfold ReadP.val_main_v45
  rfl

/-- The second layer at `(r, f)` as the accumulating scatter of its messages, plus the bias at `f`. -/
theorem conv2_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (r : Fin 50000) (f : Fin 128) :
    ReadP.val_main_v66 (F := Ideal) x0 x1 x2 x3 x4 x5 (ix2 r f)
      = Host.scatterAdd (F := Ideal) (φ := .f32) scatter_S50000x128_S850000x1_S850000x128_1_0_0_1 (ReadP.val_main_v61 (F := Ideal))
          (ReadP.val_main_v44 (F := Ideal) x1) (ReadP.val_main_v60 (F := Ideal) x0 x1 x2 x3 x4) (ix2 r f) + x5 (ix1 f) := by
  have eb : ReadP.val_main_v65 (F := Ideal) x5 (ix2 r f) = x5 (ix1 f) := by
    rw [ReadP.val_main_v65_apply, ReadP.val_main_v64_apply]
    exact congrArg x5 (funext fun a => Fin.ext (by match a with | ⟨0, _⟩ => rfl))
  rw [ReadP.val_main_v66_apply, eb, Ideal.addf_def]
  unfold ReadP.val_main_v63
  rfl

/-- The third layer at `(r, f)` as the accumulating scatter of its messages, plus the bias at `f`. -/
theorem conv3_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal))
    (r : Fin 50000) (f : Fin 64) :
    ReadP.val_main_v84 (F := Ideal) x0 x1 x2 x3 x4 x5 x6 x7 (ix2 r f)
      = Host.scatterAdd (F := Ideal) (φ := .f32) scatter_S50000x64_S850000x1_S850000x64_1_0_0_1 (ReadP.val_main_v79 (F := Ideal))
          (ReadP.val_main_v44 (F := Ideal) x1) (ReadP.val_main_v78 (F := Ideal) x0 x1 x2 x3 x4 x5 x6) (ix2 r f) + x7 (ix1 f) := by
  have eb : ReadP.val_main_v83 (F := Ideal) x7 (ix2 r f) = x7 (ix1 f) := by
    rw [ReadP.val_main_v83_apply, ReadP.val_main_v82_apply]
    exact congrArg x7 (funext fun a => Fin.ext (by match a with | ⟨0, _⟩ => rfl))
  rw [ReadP.val_main_v84_apply, eb, Ideal.addf_def]
  unfold ReadP.val_main_v81
  rfl

end Cert.Proof.Bridge

end
-- ==== Proof.Bridge.lean ====
/-
  The bridge between the kernel's nest of pure terms and the reference's stages, layer by layer.

  Write `D` for the vector of per-node factors (zero, or one over the square root of the degree). For each layer the
  kernel holds the transformed rows already scaled at their own row, `T · D`; the rows gathered along the edges and
  summed at the destinations, then scaled by `D` at the destination and shifted by the bias, are the reference's layer
  output, whose messages carry both factors before the sum. Feeding that equality through the rectifier and the next
  weight matrix gives the next layer's scaled rows, and after the third layer the two results.
-/
import proofs.«106710_j9405978378565_2_alg».proof.Proof.RefLayers
import proofs.«106710_j9405978378565_2_alg».proof.Proof.KernelTerms
import proofs.«106710_j9405978378565_2_alg».proof.Proof.RegionArraysAt
import proofs.«106710_j9405978378565_2_alg».proof.Proof.BridgeAgg
import Idealize.ShloMosaic.Lib.ValueIdx
import Idealize.ShloMosaic.Lib.ValueLayout

set_option maxRecDepth 16384

noncomputable section

namespace Cert.Proof.Bridge

open Idealize.ShloMosaic Idealize.ShloMosaic.ValueIdx
open Cert.KernelIdeal.StageValue Cert.KernelIdeal.RegionValue Cert.ReferenceIdeal.RefValue
open Cert.ReferenceIdeal (ReadP.val_main_v16 ReadP.val_main_v32 ReadP.val_main_v42 ReadP.val_main_v48 ReadP.val_main_v50 ReadP.val_main_v60
  ReadP.val_main_v66 ReadP.val_main_v68 ReadP.val_main_v78 ReadP.val_main_v84 ReadP.val_main_v88)

variable (x : Arr Cert.KernelIdeal.S50000x128 .f32) (ei : Arr Cert.KernelIdeal.S2x800000 .i32)
  (W1 : Arr Cert.KernelIdeal.S128x128 .f32) (b1 : Arr Cert.KernelIdeal.S128 .f32)
  (Wh : Arr Cert.KernelIdeal.S128x128 .f32) (bh : Arr Cert.KernelIdeal.S128 .f32)
  (W2 : Arr Cert.KernelIdeal.S128x64 .f32) (b2 : Arr Cert.KernelIdeal.S64 .f32)
  (Wout : Arr Cert.KernelIdeal.S64x1 .f32) (bout : Arr Cert.KernelIdeal.S1 .f32)

/-- Layer 1's transformed rows, scaled at their own row: the reference's product `x · W1` times the row's factor. -/
theorem ts1_at (s : Fin 50000) (g : Fin 128) :
    ts1 x ei W1 (ix2 s g) = ReadP.val_main_v32 (F := Ideal) x W1 (ix2 s g) * ReadP.val_main_v16 (F := Ideal) ei (ix1 s) := by
  unfold ts1
  rw [scaledProduct0_at, d2_apply, matmul1_apply]

/-- Layer 1 before its rectifier: "sum the scaled rows, scale at the destination, add the bias" is the reference's "sum
    the doubly scaled messages, add the bias". -/
theorem pre1_at (r : Fin 50000) (f : Fin 128) :
    agg128 ei (ts1 x ei W1) (ix2 r f) * ReadP.val_main_v16 (F := Ideal) ei (ix1 r)
        + shapeCast Cert.KernelIdeal.S1x128 b1 Cert.KernelIdeal.Gen.shapeCasts_S128_S1x128 (ix2 (0 : Fin 1) f)
      = ReadP.val_main_v48 (F := Ideal) x ei W1 b1 (ix2 r f) := by
  rw [agg128_scaled ei (ts1 x ei W1) (ReadP.val_main_v32 (F := Ideal) x W1) (ReadP.val_main_v42 (F := Ideal) x ei W1)
    (ts1_at x ei W1) (message1_at x ei W1) r f, conv1_apply, shapeCast_a_1a_apply]

/-- Layer 2's transformed rows, scaled at their own row. -/
theorem ts2_at (s : Fin 50000) (g : Fin 128) :
    ts2 x ei W1 b1 Wh (ix2 s g)
      = ReadP.val_main_v50 (F := Ideal) x ei W1 b1 Wh (ix2 s g) * ReadP.val_main_v16 (F := Ideal) ei (ix1 s) := by
  unfold ts2
  rw [scaledReluProduct1_at]
  rw [matmul2_apply]
  rw [d2_apply]
  have hk : ∀ k : Fin 128,
      max (agg128 ei (ts1 x ei W1) (ix2 s k) * ReadP.val_main_v16 (F := Ideal) ei (ix1 s)
        + shapeCast Cert.KernelIdeal.S1x128 b1 Cert.KernelIdeal.Gen.shapeCasts_S128_S1x128 (ix2 (0 : Fin 1) k)) 0 * Wh (ix2 k g)
      = Cert.ReferenceIdeal.ReadP.val_main_v49 (F := Ideal) x ei W1 b1 (ix2 s k) * Wh (ix2 k g) := fun k => by
    rw [pre1_at x ei W1 b1 s k, relu1_apply]
  rw [Finset.sum_congr rfl (fun k _ => hk k)]

/-- Layer 2 before its rectifier. -/
theorem pre2_at (r : Fin 50000) (f : Fin 128) :
    agg128 ei (ts2 x ei W1 b1 Wh) (ix2 r f) * ReadP.val_main_v16 (F := Ideal) ei (ix1 r)
        + shapeCast Cert.KernelIdeal.S1x128 bh Cert.KernelIdeal.Gen.shapeCasts_S128_S1x128 (ix2 (0 : Fin 1) f)
      = ReadP.val_main_v66 (F := Ideal) x ei W1 b1 Wh bh (ix2 r f) := by
  rw [agg128_scaled ei (ts2 x ei W1 b1 Wh) (ReadP.val_main_v50 (F := Ideal) x ei W1 b1 Wh) (ReadP.val_main_v60 (F := Ideal) x ei W1 b1 Wh)
    (ts2_at x ei W1 b1 Wh) (message2_at x ei W1 b1 Wh) r f, conv2_apply, shapeCast_a_1a_apply]
  rfl

/-- Layer 3's transformed rows (width 64), scaled at their own row. -/
theorem ts3_at (s : Fin 50000) (g : Fin 64) :
    ts3 x ei W1 b1 Wh bh W2 (ix2 s g)
      = ReadP.val_main_v68 (F := Ideal) x ei W1 b1 Wh bh W2 (ix2 s g) * ReadP.val_main_v16 (F := Ideal) ei (ix1 s) := by
  unfold ts3
  rw [scaledReluProduct2_at]
  rw [matmul3_apply]
  rw [d2_apply]
  have hk : ∀ k : Fin 128,
      max (agg128 ei (ts2 x ei W1 b1 Wh) (ix2 s k) * ReadP.val_main_v16 (F := Ideal) ei (ix1 s)
        + shapeCast Cert.KernelIdeal.S1x128 bh Cert.KernelIdeal.Gen.shapeCasts_S128_S1x128 (ix2 (0 : Fin 1) k)) 0 * W2 (ix2 k g)
      = Cert.ReferenceIdeal.ReadP.val_main_v67 (F := Ideal) x ei W1 b1 Wh bh (ix2 s k) * W2 (ix2 k g) := fun k => by
    rw [pre2_at x ei W1 b1 Wh bh s k, relu2_apply]
  rw [Finset.sum_congr rfl (fun k _ => hk k)]

/-- Layer 3's output (no rectifier): the node embeddings. -/
theorem pre3_at (r : Fin 50000) (f : Fin 64) :
    agg64 ei (ts3 x ei W1 b1 Wh bh W2) (ix2 r f) * ReadP.val_main_v16 (F := Ideal) ei (ix1 r)
        + shapeCast Cert.KernelIdeal.S1x64 b2 Cert.KernelIdeal.Gen.shapeCasts_S64_S1x64 (ix2 (0 : Fin 1) f)
      = ReadP.val_main_v84 (F := Ideal) x ei W1 b1 Wh bh W2 b2 (ix2 r f) := by
  rw [agg64_scaled ei (ts3 x ei W1 b1 Wh bh W2) (ReadP.val_main_v68 (F := Ideal) x ei W1 b1 Wh bh W2) (ReadP.val_main_v78 (F := Ideal) x ei W1 b1 Wh bh W2)
    (ts3_at x ei W1 b1 Wh bh W2) (message3_at x ei W1 b1 Wh bh W2) r f, conv3_apply, shapeCast_a_1a_apply]

/-- THE EMBEDDINGS AGREE: the kernel's second result is the reference's, as whole arrays. -/
theorem h_eq : hK x ei W1 b1 Wh bh W2 b2 = ReadP.val_main_v84 (F := Ideal) x ei W1 b1 Wh bh W2 b2 := by
  funext i
  obtain ⟨r, f, rfl⟩ : ∃ (r : Fin 50000) (f : Fin 64), i = ix2 r f := ⟨i 0, i 1, eq_ix2 i⟩
  unfold hK
  rw [scaledBiased3_at, d2_apply]
  exact pre3_at x ei W1 b1 Wh bh W2 b2 r f

/-- THE DECODED OUTPUTS AGREE: the kernel's first result is the reference's, as whole arrays. -/
theorem out_eq : outK x ei W1 b1 Wh bh W2 b2 Wout bout = ReadP.val_main_v88 (F := Ideal) x ei W1 b1 Wh bh W2 b2 Wout bout := by
  funext i
  obtain ⟨r, u, rfl⟩ : ∃ (r : Fin 50000) (u : Fin 1), i = ix2 r u := ⟨i 0, i 1, eq_ix2 i⟩
  obtain rfl : u = 0 := Subsingleton.elim _ _
  unfold outK
  rw [decoded3_at]
  rw [decoder_apply]
  rw [d2_apply]
  rw [shapeCast_a_a1_apply]
  have hk : ∀ k : Fin 64,
      (agg64 ei (ts3 x ei W1 b1 Wh bh W2) (ix2 r k) * ReadP.val_main_v16 (F := Ideal) ei (ix1 r)
        + shapeCast Cert.KernelIdeal.S1x64 b2 Cert.KernelIdeal.Gen.shapeCasts_S64_S1x64 (ix2 (0 : Fin 1) k)) * Wout (ix2 k (0 : Fin 1))
      = ReadP.val_main_v84 (F := Ideal) x ei W1 b1 Wh bh W2 b2 (ix2 r k) * Wout (ix2 k (0 : Fin 1)) := fun k => by
    rw [pre3_at x ei W1 b1 Wh bh W2 b2 r k]
  rw [Finset.sum_congr rfl (fun k _ => hk k)]

end Cert.Proof.Bridge

end
-- ==== Proof.lean ====
/-
  The proof of the certificate's claim for a three-layer graph convolution.

  Both programs normalise a graph by the inverse square roots `dis` of its node degrees (self loops added), and apply three
  layers "transform the rows by a weight matrix, send each source row along its edges, sum at the destinations, add a
  bias", with a rectifier after the first two and a linear decoder after the third. The reference scales each message by
  `dis[src] * dis[dst]` before the sum. The kernel scales the transformed rows by `dis` at their own row before they are
  gathered, sums, and scales the sum by `dis` at the destination row inside the next row-tiled matrix-product region.
  The two agree because a factor that is a nonnegative real distributes over a sum of extended reals, every entry of
  `dis` is such a factor (zero, or the reciprocal square root of something at least 1), and an edge whose message is
  summed into a row reads, in the reference, `dis` at that same row.
  The frames are the generated ones (the reference's is its run with the results dropped); no operation was rewritten by
  the idealization, so `preserves` is trivial.
-/
import proofs.«106710_j9405978378565_2_alg».proof.Defs
import proofs.«106710_j9405978378565_2_alg».proof.Proof.Gen.Kernel
import proofs.«106710_j9405978378565_2_alg».proof.Proof.Gen.Kernel.Frame
import proofs.«106710_j9405978378565_2_alg».proof.Proof.Gen.KernelIdeal
import proofs.«106710_j9405978378565_2_alg».proof.Proof.Gen.KernelIdeal.Frame
import proofs.«106710_j9405978378565_2_alg».proof.Proof.Gen.ReferenceIdeal
import proofs.«106710_j9405978378565_2_alg».proof.Proof.Gen.Pre_finite_inputs
import proofs.«106710_j9405978378565_2_alg».proof.Proof.RefReadP
import proofs.«106710_j9405978378565_2_alg».proof.Proof.KernelRun
import proofs.«106710_j9405978378565_2_alg».proof.Proof.KernelStages
import proofs.«106710_j9405978378565_2_alg».proof.Proof.Bridge
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ
theorem frame_kernel_ideal [Cert.KernelIdeal.Facts] [Cert.Pre_finite_inputs.Facts] : Cert.frame_KernelIdeal :=
  fun m ρ _ => Cert.KernelIdeal.Gen.frame m ρ
/-- The reference's frame: its run, the two results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.ValueP.run (F := Ideal) m ρ)

/-- At the ideal instance the kernel's two result arrays are the nest of pure terms its regions and host stretches
    compose to, the reference's are its last stages, and the two are one function of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.StageValue.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.KernelIdeal.StageValue.hK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c _ (Cert.KernelIdeal.Gen.mem_uc Cert.KernelIdeal.main_v58_1 (by decide))).trans (Cert.KernelIdeal.StageValue.result_out m ρ c),
      (h c _ (Cert.KernelIdeal.Gen.mem_uc Cert.KernelIdeal.main_v58_0 (by decide))).trans (Cert.KernelIdeal.StageValue.result_h m ρ c),
      (h c _ (Cert.KernelIdeal.Gen.mem_uc Cert.KernelIdeal.main_arg0 (by decide))).trans (Cert.KernelIdeal.Gen.W10_main_arg0 m ρ c),
      (h c _ (Cert.KernelIdeal.Gen.mem_uc Cert.KernelIdeal.main_arg1 (by decide))).trans (Cert.KernelIdeal.Gen.W10_main_arg1 m ρ c),
      (h c _ (Cert.KernelIdeal.Gen.mem_uc Cert.KernelIdeal.main_arg2 (by decide))).trans (Cert.KernelIdeal.Gen.W10_main_arg2 m ρ c),
      (h c _ (Cert.KernelIdeal.Gen.mem_uc Cert.KernelIdeal.main_arg3 (by decide))).trans (Cert.KernelIdeal.Gen.W10_main_arg3 m ρ c),
      (h c _ (Cert.KernelIdeal.Gen.mem_uc Cert.KernelIdeal.main_arg4 (by decide))).trans (Cert.KernelIdeal.Gen.W10_main_arg4 m ρ c),
      (h c _ (Cert.KernelIdeal.Gen.mem_uc Cert.KernelIdeal.main_arg5 (by decide))).trans (Cert.KernelIdeal.Gen.W10_main_arg5 m ρ c),
      (h c _ (Cert.KernelIdeal.Gen.mem_uc Cert.KernelIdeal.main_arg6 (by decide))).trans (Cert.KernelIdeal.Gen.W10_main_arg6 m ρ c),
      (h c _ (Cert.KernelIdeal.Gen.mem_uc Cert.KernelIdeal.main_arg7 (by decide))).trans (Cert.KernelIdeal.Gen.W10_main_arg7 m ρ c),
      (h c _ (Cert.KernelIdeal.Gen.mem_uc Cert.KernelIdeal.main_arg8 (by decide))).trans (Cert.KernelIdeal.Gen.W10_main_arg8 m ρ c),
      (h c _ (Cert.KernelIdeal.Gen.mem_uc Cert.KernelIdeal.main_arg9 (by decide))).trans (Cert.KernelIdeal.Gen.W10_main_arg9 m ρ c)⟩)
      (Cert.KernelIdeal.RunValue.run_all (F := Ideal) m ρ)
  · refine (θ_run Cert.ReferenceIdeal.defs _ _).mono (fun r h c => ?_) (Cert.ReferenceIdeal.ValueP.run (F := Ideal) m' ρ')
    obtain ⟨a0, a1, a2, a3, a4, a5, a6, a7, a8, a9⟩ := hagree c
    refine ⟨(h c).1.trans ?_, (h c).2.1.trans ?_, (h c).2.2⟩
    · rw [Cert.ReferenceIdeal.ReadP.val_main_v88_eq, a0, a1, a2, a3, a4, a5, a6, a7, a8, a9]
      exact (Cert.Proof.Bridge.out_eq _ _ _ _ _ _ _ _ _ _).symm
    · rw [Cert.ReferenceIdeal.ReadP.val_main_v84_eq, a0, a1, a2, a3, a4, a5, a6, a7]
      exact (Cert.Proof.Bridge.h_eq _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
